-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v102_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v102_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S6000000 : Shape := ⟨1, ![6000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) (main_arg1 : IVec S6000000 32) (main_arg2 : IVec S6000000 32) (main_arg3 : IVec S6000000 32) (main_arg4 : IVec S6000000 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  main_v3
-- ==== Kernel.lean ====
abbrev S2000000x3 : Shape := ⟨2, ![2000000, 3]⟩
abbrev S6000000 : Shape := ⟨1, ![6000000]⟩
abbrev S2000000x1 : Shape := ⟨2, ![2000000, 1]⟩
abbrev S2000000 : Shape := ⟨1, ![2000000]⟩
abbrev S_ : Shape := ⟨0, ![]⟩
abbrev S6000000x1 : Shape := ⟨2, ![6000000, 1]⟩
abbrev S1x6000000 : Shape := ⟨2, ![1, 6000000]⟩
abbrev S75x1x1 : Shape := ⟨3, ![75, 1, 1]⟩
abbrev S1x80000 : Shape := ⟨2, ![1, 80000]⟩
abbrev S1x1x1 : Shape := ⟨3, ![1, 1, 1]⟩
abbrev S1x1x80000 : Shape := ⟨3, ![1, 1, 80000]⟩
abbrev S1 : Shape := ⟨1, ![1]⟩

abbrev nBuf : Space → Nat
  | .hbm => 136
  | .vmem => 28
  | .smem => 0
  | _ => 0

abbrev hbmTy0_0 (i : Nat) : BufTy := match i % 128 with
  | 0 => ⟨S2000000x3, .f32⟩
  | 1 => ⟨S6000000, .i32⟩
  | 2 => ⟨S6000000, .i32⟩
  | 3 => ⟨S6000000, .i32⟩
  | 4 => ⟨S6000000, .i32⟩
  | 5 => ⟨S2000000x1, .f32⟩
  | 6 => ⟨S2000000, .f32⟩
  | 7 => ⟨S2000000x1, .f32⟩
  | 8 => ⟨S2000000, .f32⟩
  | 9 => ⟨S2000000x1, .f32⟩
  | 10 => ⟨S2000000, .f32⟩
  | 11 => ⟨S_, .i32⟩
  | 12 => ⟨S6000000, .i32⟩
  | 13 => ⟨S6000000, .i1⟩
  | 14 => ⟨S_, .i32⟩
  | 15 => ⟨S6000000, .i32⟩
  | 16 => ⟨S6000000, .i32⟩
  | 17 => ⟨S6000000, .i32⟩
  | 18 => ⟨S6000000x1, .i32⟩
  | 19 => ⟨S6000000, .f32⟩
  | 20 => ⟨S_, .i32⟩
  | 21 => ⟨S6000000, .i32⟩
  | 22 => ⟨S6000000, .i1⟩
  | 23 => ⟨S_, .i32⟩
  | 24 => ⟨S6000000, .i32⟩
  | 25 => ⟨S6000000, .i32⟩
  | 26 => ⟨S6000000, .i32⟩
  | 27 => ⟨S6000000x1, .i32⟩
  | 28 => ⟨S6000000, .f32⟩
  | 29 => ⟨S_, .i32⟩
  | 30 => ⟨S6000000, .i32⟩
  | 31 => ⟨S6000000, .i1⟩
  | 32 => ⟨S_, .i32⟩
  | 33 => ⟨S6000000, .i32⟩
  | 34 => ⟨S6000000, .i32⟩
  | 35 => ⟨S6000000, .i32⟩
  | 36 => ⟨S6000000x1, .i32⟩
  | 37 => ⟨S6000000, .f32⟩
  | 38 => ⟨S_, .i32⟩
  | 39 => ⟨S6000000, .i32⟩
  | 40 => ⟨S6000000, .i1⟩
  | 41 => ⟨S_, .i32⟩
  | 42 => ⟨S6000000, .i32⟩
  | 43 => ⟨S6000000, .i32⟩
  | 44 => ⟨S6000000, .i32⟩
  | 45 => ⟨S6000000x1, .i32⟩
  | 46 => ⟨S6000000, .f32⟩
  | 47 => ⟨S_, .i32⟩
  | 48 => ⟨S6000000, .i32⟩
  | 49 => ⟨S6000000, .i1⟩
  | 50 => ⟨S_, .i32⟩
  | 51 => ⟨S6000000, .i32⟩
  | 52 => ⟨S6000000, .i32⟩
  | 53 => ⟨S6000000, .i32⟩
  | 54 => ⟨S6000000x1, .i32⟩
  | 55 => ⟨S6000000, .f32⟩
  | 56 => ⟨S_, .i32⟩
  | 57 => ⟨S6000000, .i32⟩
  | 58 => ⟨S6000000, .i1⟩
  | 59 => ⟨S_, .i32⟩
  | 60 => ⟨S6000000, .i32⟩
  | 61 => ⟨S6000000, .i32⟩
  | 62 => ⟨S6000000, .i32⟩
  | 63 => ⟨S6000000x1, .i32⟩
  | 64 => ⟨S6000000, .f32⟩
  | 65 => ⟨S_, .i32⟩
  | 66 => ⟨S6000000, .i32⟩
  | 67 => ⟨S6000000, .i1⟩
  | 68 => ⟨S_, .i32⟩
  | 69 => ⟨S6000000, .i32⟩
  | 70 => ⟨S6000000, .i32⟩
  | 71 => ⟨S6000000, .i32⟩
  | 72 => ⟨S6000000x1, .i32⟩
  | 73 => ⟨S6000000, .f32⟩
  | 74 => ⟨S_, .i32⟩
  | 75 => ⟨S6000000, .i32⟩
  | 76 => ⟨S6000000, .i1⟩
  | 77 => ⟨S_, .i32⟩
  | 78 => ⟨S6000000, .i32⟩
  | 79 => ⟨S6000000, .i32⟩
  | 80 => ⟨S6000000, .i32⟩
  | 81 => ⟨S6000000x1, .i32⟩
  | 82 => ⟨S6000000, .f32⟩
  | 83 => ⟨S_, .i32⟩
  | 84 => ⟨S6000000, .i32⟩
  | 85 => ⟨S6000000, .i1⟩
  | 86 => ⟨S_, .i32⟩
  | 87 => ⟨S6000000, .i32⟩
  | 88 => ⟨S6000000, .i32⟩
  | 89 => ⟨S6000000, .i32⟩
  | 90 => ⟨S6000000x1, .i32⟩
  | 91 => ⟨S6000000, .f32⟩
  | 92 => ⟨S_, .i32⟩
  | 93 => ⟨S6000000, .i32⟩
  | 94 => ⟨S6000000, .i1⟩
  | 95 => ⟨S_, .i32⟩
  | 96 => ⟨S6000000, .i32⟩
  | 97 => ⟨S6000000, .i32⟩
  | 98 => ⟨S6000000, .i32⟩
  | 99 => ⟨S6000000x1, .i32⟩
  | 100 => ⟨S6000000, .f32⟩
  | 101 => ⟨S_, .i32⟩
  | 102 => ⟨S6000000, .i32⟩
  | 103 => ⟨S6000000, .i1⟩
  | 104 => ⟨S_, .i32⟩
  | 105 => ⟨S6000000, .i32⟩
  | 106 => ⟨S6000000, .i32⟩
  | 107 => ⟨S6000000, .i32⟩
  | 108 => ⟨S6000000x1, .i32⟩
  | 109 => ⟨S6000000, .f32⟩
  | 110 => ⟨S_, .i32⟩
  | 111 => ⟨S6000000, .i32⟩
  | 112 => ⟨S6000000, .i1⟩
  | 113 => ⟨S_, .i32⟩
  | 114 => ⟨S6000000, .i32⟩
  | 115 => ⟨S6000000, .i32⟩
  | 116 => ⟨S6000000, .i32⟩
  | 117 => ⟨S6000000x1, .i32⟩
  | 118 => ⟨S6000000, .f32⟩
  | 119 => ⟨S1x6000000, .f32⟩
  | 120 => ⟨S1x6000000, .f32⟩
  | 121 => ⟨S1x6000000, .f32⟩
  | 122 => ⟨S1x6000000, .f32⟩
  | 123 => ⟨S1x6000000, .f32⟩
  | 124 => ⟨S1x6000000, .f32⟩
  | 125 => ⟨S1x6000000, .f32⟩
  | 126 => ⟨S1x6000000, .f32⟩
  | 127 => ⟨S1x6000000, .f32⟩
  | _ => ⟨S2000000x3, .f32⟩

abbrev hbmTy0_1 (i : Nat) : BufTy := match i % 128 with
  | 0 => ⟨S1x6000000, .f32⟩
  | 1 => ⟨S1x6000000, .f32⟩
  | 2 => ⟨S1x6000000, .f32⟩
  | 3 => ⟨S1x6000000, .f32⟩
  | 4 => ⟨S75x1x1, .f32⟩
  | 5 => ⟨S_, .f32⟩
  | 6 => ⟨S_, .f32⟩
  | 7 => ⟨S1, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | .local _ .vmem, ⟨0, _⟩ => ⟨S1x80000, .f32⟩
  | .local _ .vmem, ⟨1, _⟩ => ⟨S1x80000, .f32⟩
  | .local _ .vmem, ⟨2, _⟩ => ⟨S1x80000, .f32⟩
  | .local _ .vmem, ⟨3, _⟩ => ⟨S1x80000, .f32⟩
  | .local _ .vmem, ⟨4, _⟩ => ⟨S1x80000, .f32⟩
  | .local _ .vmem, ⟨5, _⟩ => ⟨S1x80000, .f32⟩
  | .local _ .vmem, ⟨6, _⟩ => ⟨S1x80000, .f32⟩
  | .local _ .vmem, ⟨7, _⟩ => ⟨S1x80000, .f32⟩
  | .local _ .vmem, ⟨8, _⟩ => ⟨S1x80000, .f32⟩
  | .local _ .vmem, ⟨9, _⟩ => ⟨S1x80000, .f32⟩
  | .local _ .vmem, ⟨10, _⟩ => ⟨S1x80000, .f32⟩
  | .local _ .vmem, ⟨11, _⟩ => ⟨S1x80000, .f32⟩
  | .local _ .vmem, ⟨12, _⟩ => ⟨S1x80000, .f32⟩
  | .local _ .vmem, ⟨13, _⟩ => ⟨S1x80000, .f32⟩
  | .local _ .vmem, ⟨14, _⟩ => ⟨S1x80000, .f32⟩
  | .local _ .vmem, ⟨15, _⟩ => ⟨S1x80000, .f32⟩
  | .local _ .vmem, ⟨16, _⟩ => ⟨S1x80000, .f32⟩
  | .local _ .vmem, ⟨17, _⟩ => ⟨S1x80000, .f32⟩
  | .local _ .vmem, ⟨18, _⟩ => ⟨S1x80000, .f32⟩
  | .local _ .vmem, ⟨19, _⟩ => ⟨S1x80000, .f32⟩
  | .local _ .vmem, ⟨20, _⟩ => ⟨S1x80000, .f32⟩
  | .local _ .vmem, ⟨21, _⟩ => ⟨S1x80000, .f32⟩
  | .local _ .vmem, ⟨22, _⟩ => ⟨S1x80000, .f32⟩
  | .local _ .vmem, ⟨23, _⟩ => ⟨S1x80000, .f32⟩
  | .local _ .vmem, ⟨24, _⟩ => ⟨S1x80000, .f32⟩
  | .local _ .vmem, ⟨25, _⟩ => ⟨S1x80000, .f32⟩
  | .local _ .vmem, ⟨26, _⟩ => ⟨S1x1x1, .f32⟩
  | .local _ .vmem, ⟨27, _⟩ => ⟨S1x1x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_13 : Ref sig .tc := ⟨.hbm, 74, rfl⟩
abbrev main_v55 : Ref sig .tc := ⟨.hbm, 75, rfl⟩
abbrev main_v56 : Ref sig .tc := ⟨.hbm, 76, rfl⟩
abbrev main_c_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_15 : Ref sig .tc := ⟨.hbm, 83, rfl⟩
abbrev main_v62 : Ref sig .tc := ⟨.hbm, 84, rfl⟩
abbrev main_v63 : Ref sig .tc := ⟨.hbm, 85, rfl⟩
abbrev main_c_16 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_17 : Ref sig .tc := ⟨.hbm, 92, rfl⟩
abbrev main_v69 : Ref sig .tc := ⟨.hbm, 93, rfl⟩
abbrev main_v70 : Ref sig .tc := ⟨.hbm, 94, rfl⟩
abbrev main_c_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_19 : Ref sig .tc := ⟨.hbm, 101, rfl⟩
abbrev main_v76 : Ref sig .tc := ⟨.hbm, 102, rfl⟩
abbrev main_v77 : Ref sig .tc := ⟨.hbm, 103, rfl⟩
abbrev main_c_20 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_21 : Ref sig .tc := ⟨.hbm, 110, rfl⟩
abbrev main_v83 : Ref sig .tc := ⟨.hbm, 111, rfl⟩
abbrev main_v84 : Ref sig .tc := ⟨.hbm, 112, rfl⟩
abbrev main_c_22 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102_0 : Ref sig .tc := ⟨.hbm, 131, rfl⟩
abbrev main_v102_1 : Ref sig .tc := ⟨.hbm, 132, rfl⟩
abbrev main_cst : Ref sig .tc := ⟨.hbm, 133, rfl⟩
abbrev main_v103 : Ref sig .tc := ⟨.hbm, 134, rfl⟩
abbrev main_v104 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x80000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x80000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x80000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x80000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x80000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x80000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x80000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x80000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x80000 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S_S6000000 : S_.BroadcastsInDim S6000000 (![] : Fin 0 → Fin S6000000.rank)
  bcast_S6000000_S6000000x1_0 : S6000000.BroadcastsInDim S6000000x1 (![0] : Fin 1 → Fin S6000000x1.rank)
  shapeCasts_S6000000_S1x6000000 : S6000000.ShapeCasts S1x6000000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  shapeCasts_S1x80000_S1x1x80000 : S1x80000.ShapeCasts S1x1x80000
  reduces_S1x1x80000_S1 : S1x1x80000.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S75x1x1_S_d0_1_2 : S75x1x1.ReducesTo [0, 1, 2] S_
  h_S_ : 0 < S_.numel
  shapeCasts_S_S1 : S_.ShapeCasts S1
  gather_S2000000_S6000000x1_S6000000_n_0_n_n_0_1_1_wf : GatherDims.WF S2000000 S6000000x1 S6000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80000.size a ≤ S1x6000000.size a
  hwx0_0 : ∀ i : grid0.Coords, EltTy.bits .f32 = 32 ∨ (Rect.block (s := S1x6000000) S1x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x6000000.size a
  hwx0_1 : ∀ i : grid0.Coords, EltTy.bits .f32 = 32 ∨ (Rect.block (s := S1x6000000) S1x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x6000000.size a
  hwx0_2 : ∀ i : grid0.Coords, EltTy.bits .f32 = 32 ∨ (Rect.block (s := S1x6000000) S1x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80000.size a ≤ S1x6000000.size a
  hwx0_3 : ∀ i : grid0.Coords, EltTy.bits .f32 = 32 ∨ (Rect.block (s := S1x6000000) S1x80000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x80000.size a ≤ S1x6000000.size a
  hwx0_4 : ∀ i : grid0.Coords, EltTy.bits .f32 = 32 ∨ (Rect.block (s := S1x6000000) S1x80000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x80000.size a ≤ S1x6000000.size a
  hwx0_5 : ∀ i : grid0.Coords, EltTy.bits .f32 = 32 ∨ (Rect.block (s := S1x6000000) S1x80000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x80000.size a ≤ S1x6000000.size a
  hwx0_6 : ∀ i : grid0.Coords, EltTy.bits .f32 = 32 ∨ (Rect.block (s := S1x6000000) S1x80000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x80000.size a ≤ S1x6000000.size a
  hwx0_7 : ∀ i : grid0.Coords, EltTy.bits .f32 = 32 ∨ (Rect.block (s := S1x6000000) S1x80000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x80000.size a ≤ S1x6000000.size a
  hwx0_8 : ∀ i : grid0.Coords, EltTy.bits .f32 = 32 ∨ (Rect.block (s := S1x6000000) S1x80000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x80000.size a ≤ S1x6000000.size a
  hwx0_9 : ∀ i : grid0.Coords, EltTy.bits .f32 = 32 ∨ (Rect.block (s := S1x6000000) S1x80000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x80000.size a ≤ S1x6000000.size a
  hwx0_10 : ∀ i : grid0.Coords, EltTy.bits .f32 = 32 ∨ (Rect.block (s := S1x6000000) S1x80000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x80000.size a ≤ S1x6000000.size a
  hwx0_11 : ∀ i : grid0.Coords, EltTy.bits .f32 = 32 ∨ (Rect.block (s := S1x6000000) S1x80000.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x80000.size a ≤ S1x6000000.size a
  hwx0_12 : ∀ i : grid0.Coords, EltTy.bits .f32 = 32 ∨ (Rect.block (s := S1x6000000) S1x80000.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x1.size a ≤ S75x1x1.size a
  hwx0_13 : ∀ i : grid0.Coords, EltTy.bits .f32 = 32 ∨ (Rect.block (s := S75x1x1) S1x1x1.size (cc0_transform_13 i) (hinb0_13 i)).WholeWords (EltTy.packing .f32)

variable [Facts₀]

def gather_S2000000_S6000000x1_S6000000_n_0_n_n_0_1_1 : GatherDims S2000000 S6000000x1 S6000000 where
  offsetDims := []
  collapsedSliceDims := [0]
  operandBatchingDims := []
  startIndicesBatchingDims := []
  startIndexMap := [0]
  indexVectorDim := 1
  sliceSizes := ![1]
  wf := gather_S2000000_S6000000x1_S6000000_n_0_n_n_0_1_1_wf

abbrev win0_0 : Pipeline.Window sig grid0 :=
  Pipeline.Window.ofSpec (Memref.whole main_v90) S1x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v91) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S1x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v93) S1x80000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v94) S1x80000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v95) S1x80000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v96) S1x80000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v97) S1x80000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v98) S1x80000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v99) S1x80000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v100) S1x80000.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v101) S1x80000.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v102_0) S1x80000.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v102_1) S1x1x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S6000000 : Shape := ⟨1, ![6000000]⟩
abbrev S1x2000000x3 : Shape := ⟨3, ![1, 2000000, 3]⟩
abbrev S_ : Shape := ⟨0, ![]⟩
abbrev S6000000x1 : Shape := ⟨2, ![6000000, 1]⟩
abbrev S1x6000000x3 : Shape := ⟨3, ![1, 6000000, 3]⟩
abbrev S1x6000000 : Shape := ⟨2, ![1, 6000000]⟩
abbrev S1x6000000x1 : Shape := ⟨3, ![1, 6000000, 1]⟩
abbrev S1 : Shape := ⟨1, ![1]⟩

abbrev nBuf : Space → Nat
  | .hbm => 137
  | .vmem => 0
  | .smem => 0
  | _ => 0

abbrev hbmTy0_0 (i : Nat) : BufTy := match i % 128 with
  | 0 => ⟨S2000000x3, .f32⟩
  | 1 => ⟨S6000000, .i32⟩
  | 2 => ⟨S6000000, .i32⟩
  | 3 => ⟨S6000000, .i32⟩
  | 4 => ⟨S6000000, .i32⟩
  | 5 => ⟨S1x2000000x3, .f32⟩
  | 6 => ⟨S_, .i32⟩
  | 7 => ⟨S6000000, .i32⟩
  | 8 => ⟨S6000000, .i1⟩
  | 9 => ⟨S_, .i32⟩
  | 10 => ⟨S6000000, .i32⟩
  | 11 => ⟨S6000000, .i32⟩
  | 12 => ⟨S6000000, .i32⟩
  | 13 => ⟨S6000000x1, .i32⟩
  | 14 => ⟨S1x6000000x3, .f32⟩
  | 15 => ⟨S_, .i32⟩
  | 16 => ⟨S6000000, .i32⟩
  | 17 => ⟨S6000000, .i1⟩
  | 18 => ⟨S_, .i32⟩
  | 19 => ⟨S6000000, .i32⟩
  | 20 => ⟨S6000000, .i32⟩
  | 21 => ⟨S6000000, .i32⟩
  | 22 => ⟨S6000000x1, .i32⟩
  | 23 => ⟨S1x6000000x3, .f32⟩
  | 24 => ⟨S_, .i32⟩
  | 25 => ⟨S6000000, .i32⟩
  | 26 => ⟨S6000000, .i1⟩
  | 27 => ⟨S_, .i32⟩
  | 28 => ⟨S6000000, .i32⟩
  | 29 => ⟨S6000000, .i32⟩
  | 30 => ⟨S6000000, .i32⟩
  | 31 => ⟨S6000000x1, .i32⟩
  | 32 => ⟨S1x6000000x3, .f32⟩
  | 33 => ⟨S_, .i32⟩
  | 34 => ⟨S6000000, .i32⟩
  | 35 => ⟨S6000000, .i1⟩
  | 36 => ⟨S_, .i32⟩
  | 37 => ⟨S6000000, .i32⟩
  | 38 => ⟨S6000000, .i32⟩
  | 39 => ⟨S6000000, .i32⟩
  | 40 => ⟨S6000000x1, .i32⟩
  | 41 => ⟨S1x6000000x3, .f32⟩
  | 42 => ⟨S1x6000000x3, .f32⟩
  | 43 => ⟨S1x6000000x3, .f32⟩
  | 44 => ⟨S1x6000000x3, .f32⟩
  | 45 => ⟨S_, .f32⟩
  | 46 => ⟨S1x6000000, .f32⟩
  | 47 => ⟨S1x6000000x3, .f32⟩
  | 48 => ⟨S_, .f32⟩
  | 49 => ⟨S1x6000000, .f32⟩
  | 50 => ⟨S_, .f32⟩
  | 51 => ⟨S1x6000000, .f32⟩
  | 52 => ⟨S1x6000000, .f32⟩
  | 53 => ⟨S1x6000000, .f32⟩
  | 54 => ⟨S_, .f32⟩
  | 55 => ⟨S1x6000000, .f32⟩
  | 56 => ⟨S1x6000000, .f32⟩
  | 57 => ⟨S1x6000000, .f32⟩
  | 58 => ⟨S1x6000000x3, .f32⟩
  | 59 => ⟨S_, .f32⟩
  | 60 => ⟨S1x6000000, .f32⟩
  | 61 => ⟨S1x6000000, .f32⟩
  | 62 => ⟨S_, .f32⟩
  | 63 => ⟨S1x6000000, .f32⟩
  | 64 => ⟨S1x6000000, .f32⟩
  | 65 => ⟨S1x6000000, .f32⟩
  | 66 => ⟨S1x6000000, .f32⟩
  | 67 => ⟨S_, .f32⟩
  | 68 => ⟨S1x6000000, .f32⟩
  | 69 => ⟨S1x6000000, .f32⟩
  | 70 => ⟨S_, .f32⟩
  | 71 => ⟨S1x6000000, .f32⟩
  | 72 => ⟨S1x6000000, .f32⟩
  | 73 => ⟨S1x6000000, .f32⟩
  | 74 => ⟨S_, .f32⟩
  | 75 => ⟨S1x6000000, .f32⟩
  | 76 => ⟨S1x6000000, .f32⟩
  | 77 => ⟨S1x6000000, .f32⟩
  | 78 => ⟨S1x6000000x1, .f32⟩
  | 79 => ⟨S1x6000000x3, .f32⟩
  | 80 => ⟨S1x6000000x3, .f32⟩
  | 81 => ⟨S1x6000000x3, .f32⟩
  | 82 => ⟨S1x6000000, .f32⟩
  | 83 => ⟨S1x6000000x3, .f32⟩
  | 84 => ⟨S1x6000000x3, .f32⟩
  | 85 => ⟨S_, .f32⟩
  | 86 => ⟨S1x6000000, .f32⟩
  | 87 => ⟨S1x6000000x3, .f32⟩
  | 88 => ⟨S_, .f32⟩
  | 89 => ⟨S1x6000000, .f32⟩
  | 90 => ⟨S_, .f32⟩
  | 91 => ⟨S1x6000000, .f32⟩
  | 92 => ⟨S1x6000000, .f32⟩
  | 93 => ⟨S1x6000000, .f32⟩
  | 94 => ⟨S_, .f32⟩
  | 95 => ⟨S1x6000000, .f32⟩
  | 96 => ⟨S1x6000000, .f32⟩
  | 97 => ⟨S1x6000000, .f32⟩
  | 98 => ⟨S1x6000000x3, .f32⟩
  | 99 => ⟨S_, .f32⟩
  | 100 => ⟨S1x6000000, .f32⟩
  | 101 => ⟨S1x6000000, .f32⟩
  | 102 => ⟨S_, .f32⟩
  | 103 => ⟨S1x6000000, .f32⟩
  | 104 => ⟨S1x6000000, .f32⟩
  | 105 => ⟨S1x6000000, .f32⟩
  | 106 => ⟨S1x6000000, .f32⟩
  | 107 => ⟨S_, .f32⟩
  | 108 => ⟨S1x6000000, .f32⟩
  | 109 => ⟨S1x6000000, .f32⟩
  | 110 => ⟨S_, .f32⟩
  | 111 => ⟨S1x6000000, .f32⟩
  | 112 => ⟨S1x6000000, .f32⟩
  | 113 => ⟨S1x6000000, .f32⟩
  | 114 => ⟨S_, .f32⟩
  | 115 => ⟨S1x6000000, .f32⟩
  | 116 => ⟨S1x6000000, .f32⟩
  | 117 => ⟨S1x6000000, .f32⟩
  | 118 => ⟨S1x6000000x1, .f32⟩
  | 119 => ⟨S1x6000000x3, .f32⟩
  | 120 => ⟨S1x6000000x3, .f32⟩
  | 121 => ⟨S1x6000000x3, .f32⟩
  | 122 => ⟨S1x6000000, .f32⟩
  | 123 => ⟨S1x6000000x3, .f32⟩
  | 124 => ⟨S_, .f32⟩
  | 125 => ⟨S1x6000000, .f32⟩
  | 126 => ⟨S1x6000000, .f32⟩
  | 127 => ⟨S_, .f32⟩
  | _ => ⟨S2000000x3, .f32⟩

abbrev hbmTy0_1 (i : Nat) : BufTy := match i % 128 with
  | 0 => ⟨S1x6000000, .f32⟩
  | 1 => ⟨S1x6000000, .f32⟩
  | 2 => ⟨S1x6000000, .f32⟩
  | 3 => ⟨S_, .f32⟩
  | 4 => ⟨S1x6000000, .f32⟩
  | 5 => ⟨S1x6000000, .f32⟩
  | 6 => ⟨S1x6000000, .f32⟩
  | 7 => ⟨S_, .f32⟩
  | 8 => ⟨S1, .f32⟩
  | _ => ⟨S2000000x3, .f32⟩

abbrev hbmTy (i : Nat) : BufTy := match i / 128 with
  | 0 => hbmTy0_0 i
  | 1 => hbmTy0_1 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_21 : Ref sig .tc := ⟨.hbm, 107, rfl⟩
abbrev main_v79 : Ref sig .tc := ⟨.hbm, 108, rfl⟩
abbrev main_v80 : Ref sig .tc := ⟨.hbm, 109, rfl⟩
abbrev main_cst_22 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_23 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_24 : Ref sig .tc := ⟨.hbm, 124, rfl⟩
abbrev main_v93 : Ref sig .tc := ⟨.hbm, 125, rfl⟩
abbrev main_v94 : Ref sig .tc := ⟨.hbm, 126, rfl⟩
abbrev main_cst_25 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_26 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_27 : Ref sig .tc := ⟨.hbm, 135, rfl⟩
abbrev main_v101 : Ref sig .tc := ⟨.hbm, 136, rfl⟩

abbrev nD : Nat := 1
abbrev τ : Topo := Topo.v7x

variable {F : FTy → Type} [FloatOps F]

class Facts₀ : Prop where
  bcast_S2000000x3_S1x2000000x3_1_2 : S2000000x3.BroadcastsInDim S1x2000000x3 (![1, 2] : Fin 2 → Fin S1x2000000x3.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  reducesTo_S1x6000000x3_S1x6000000_d2 : S1x6000000x3.ReducesTo [2] S1x6000000
  h_S_ : 0 < S_.numel
  bcast_S_S1x6000000 : S_.BroadcastsInDim S1x6000000 (![] : Fin 0 → Fin S1x6000000.rank)
  bcast_S1x6000000_S1x6000000x1_0_1 : S1x6000000.BroadcastsInDim S1x6000000x1 (![0, 1] : Fin 2 → Fin S1x6000000x1.rank)
  bcast_S1x6000000x1_S1x6000000x3_0_1_2 : S1x6000000x1.BroadcastsInDim S1x6000000x3 (![0, 1, 2] : Fin 3 → Fin S1x6000000x3.rank)
  reducesTo_S1x6000000_S1_d1 : S1x6000000.ReducesTo [1] S1
  gather_S1x2000000x3_S6000000x1_S1x6000000x3_02_1_n_n_1_1_113_wf : GatherDims.WF S1x2000000x3 S6000000x1 S1x6000000x3 [0, 2] [1] [] [1] [] 1 ![1, 1, 3]

variable [Facts₀]

def gather_S1x2000000x3_S6000000x1_S1x6000000x3_02_1_n_n_1_1_113 : GatherDims S1x2000000x3 S6000000x1 S1x6000000x3 where
  offsetDims := [0, 2]
  collapsedSliceDims := [1]
  operandBatchingDims := []
  startIndicesBatchingDims := []
  startIndexMap := [1]
  indexVectorDim := 1
  sliceSizes := ![1, 1, 3]
  wf := gather_S1x2000000x3_S6000000x1_S1x6000000x3_02_1_n_n_1_1_113_wf

class Facts : Prop extends Facts₀ where

variable [Facts]
-- ==== Proof.Spec.lean ====
/-
  The function both programs compute, on the extended reals.

  For an edge `e` four vertex rows are looked up (a negative index wraps by the number of vertices, and the
  wrapped index is clamped into the table), giving points `p0 … p3`.  With `a = p1 - p0`, `b = p2 - p0`,
  `c = p3 - p0`, the wing of `b` over `a` is `b - a·(a·b / (|a|² + ε))` with length
  `√(|b|² + ε) · √(1 - cos² + ε)`, `cos = a·b / (√(|a|² + ε)·√(|b|² + ε) + ε)`; the dihedral cosine is the
  dot product of the two wings over the product of their lengths plus `ε`.  The loss is the sum over all
  edges of `(cos + 1)²`.
-/
import Idealize.ShloMosaic.PureOps.Ideal
import Idealize.ShloMosaic.Lib.ValueIdx

noncomputable section

open scoped BigOperators

namespace Cert.Dihedral

open Idealize.ShloMosaic Idealize.ShloMosaic.ValueIdx

/-- The regulariser: the single-precision number nearest `1e-6`, as an exact real. -/
def eps : EReal := Ideal.ofBits .f32 0x358637BD#32
/-- The number one. -/
def one : EReal := Ideal.ofBits .f32 0x3F800000#32

/-- Squared length of a 3-vector. -/
def sq3 (a b c : EReal) : EReal := a * a + b * b + c * c
/-- Dot product of two 3-vectors. -/
def dot3 (a b c p q r : EReal) : EReal := a * p + b * q + c * r
/-- The projection coefficient `a·b / (|a|² + ε)`. -/
def coef (al2 ab : EReal) : EReal := Ideal.div ab (al2 + eps)
/-- The regularised cosine of the angle between `a` and `b`. -/
def cosAng (al2 bl2 ab : EReal) : EReal :=
  Ideal.div ab (Ideal.sqrt (al2 + eps) * Ideal.sqrt (bl2 + eps) + eps)
/-- Length of the component of `b` orthogonal to `a`: `|b| · sin`. -/
def perpLen (al2 bl2 ab : EReal) : EReal :=
  Ideal.sqrt (bl2 + eps) * Ideal.sqrt (one - cosAng al2 bl2 ab * cosAng al2 bl2 ab + eps)

/-- The dihedral cosine from the three edge vectors `a`, `b`, `c` out of `p0`. -/
def cosEdges (ax ay az bx by_ bz cx cy cz : EReal) : EReal :=
  Ideal.div
    (dot3 (bx - ax * coef (sq3 ax ay az) (dot3 ax ay az bx by_ bz))
          (by_ - ay * coef (sq3 ax ay az) (dot3 ax ay az bx by_ bz))
          (bz - az * coef (sq3 ax ay az) (dot3 ax ay az bx by_ bz))
          (cx - ax * coef (sq3 ax ay az) (dot3 ax ay az cx cy cz))
          (cy - ay * coef (sq3 ax ay az) (dot3 ax ay az cx cy cz))
          (cz - az * coef (sq3 ax ay az) (dot3 ax ay az cx cy cz)))
    (perpLen (sq3 ax ay az) (sq3 bx by_ bz) (dot3 ax ay az bx by_ bz)
      * perpLen (sq3 ax ay az) (sq3 cx cy cz) (dot3 ax ay az cx cy cz) + eps)

/-- The dihedral cosine from the twelve coordinates of the four points. -/
def cosPts (x0 y0 z0 x1 y1 z1 x2 y2 z2 x3 y3 z3 : EReal) : EReal :=
  cosEdges (x1 - x0) (y1 - y0) (z1 - z0) (x2 - x0) (y2 - y0) (z2 - z0) (x3 - x0) (y3 - y0) (z3 - z0)

/-- One edge's term of the loss. -/
def contrib (c : EReal) : EReal := (c + one) * (c + one)

/-- A negative index wraps around by the number of vertices. -/
def wrap (w : BitVec 32) : BitVec 32 :=
  Scalar.select (IntOp.cmpi .slt w 0#32) (IntOp.addi w 2000000#32) w

/-- The vertex row an index word selects: wrapped, read signed, clamped into the table. -/
def row (w : BitVec 32) : Fin 2000000 := ⟨min (wrap w).toInt.toNat (2000000 - 1), by omega⟩

section Arrays

variable (V : (⟨2, ![2000000, 3]⟩ : Shape).Idx → EReal)
  (i0 i1 i2 i3 : (⟨1, ![6000000]⟩ : Shape).Idx → BitVec 32)

/-- The dihedral cosine of edge `e`. -/
def cosAt (e : Fin 6000000) : EReal :=
  cosPts (V (ix2 (row (i0 (ix1 e))) 0)) (V (ix2 (row (i0 (ix1 e))) 1)) (V (ix2 (row (i0 (ix1 e))) 2))
         (V (ix2 (row (i1 (ix1 e))) 0)) (V (ix2 (row (i1 (ix1 e))) 1)) (V (ix2 (row (i1 (ix1 e))) 2))
         (V (ix2 (row (i2 (ix1 e))) 0)) (V (ix2 (row (i2 (ix1 e))) 1)) (V (ix2 (row (i2 (ix1 e))) 2))
         (V (ix2 (row (i3 (ix1 e))) 0)) (V (ix2 (row (i3 (ix1 e))) 1)) (V (ix2 (row (i3 (ix1 e))) 2))

/-- The array of cosines, one row of all edges. -/
def cosArr : (⟨2, ![1, 6000000]⟩ : Shape).Idx → EReal := fun j => cosAt V i0 i1 i2 i3 (j 1)

/-- The loss: the sum over every edge of `(cos + 1)²`. -/
def lossArr : (⟨1, ![1]⟩ : Shape).Idx → EReal := fun _ => ∑ e : Fin 6000000, contrib (cosAt V i0 i1 i2 i3 e)

end Arrays

end Cert.Dihedral

end
-- ==== Proof.GatherRef.lean ====
/-
  A lookup of whole rows `v[:, idx]` of a table `[1, V, 3]` at a column of start indices, read at one position
  `(0, e, k)`: the table at `(0, r, k)` where `r` is the start index stored at `(e, 0)`, read as a signed
  integer and clamped into the table.
-/
import proofs.«136911_j62929860821311_2_alg».proof.ReferenceIdeal
import Idealize.ShloMosaic.Lib.ValueIdx

noncomputable section

namespace Cert.ReferenceIdeal.Lookup

open Idealize.ShloMosaic Idealize.ShloMosaic.ValueIdx Cert.ReferenceIdeal

variable [Facts₀]

local notation "gd" => gather_S1x2000000x3_S6000000x1_S1x6000000x3_02_1_n_n_1_1_113

/-- The row gather at `y = (0, e, k)`. -/
theorem gather_apply {α : Type} (x : S1x2000000x3.Idx → α) (idx : IVec S6000000x1 32) (y : S1x6000000x3.Idx) :
    Host.gather gd x idx y
      = x (ix3 (y 0) ⟨min (idx (ix2 (y 1) (0 : Fin 1))).toInt.toNat (2000000 - 1), by omega⟩ (y 2)) := by
  unfold Host.gather
  congr 1
  funext a
  refine Fin.ext ?_
  have hsi : GatherDims.siIdx gd y ⟨List.idxOf (1 : Fin 3) (GatherDims.startIndexMap gd),
      List.idxOf_lt_length_iff.2 (List.mem_singleton.mpr rfl)⟩ = ix2 (y 1) (0 : Fin 1) := by
    funext b; refine Fin.ext ?_
    match b with
    | ⟨0, _⟩ => rfl
    | ⟨1, _⟩ => rfl
  match a with
  | ⟨0, _⟩ =>
    show GatherDims.start gd y idx 0 + GatherDims.batchCoord gd y 0 + GatherDims.offCoord gd y 0 = (y 0).val
    rw [GatherDims.batchCoord_eq_zero _ _ _ List.not_mem_nil]
    unfold GatherDims.start
    rw [dif_neg (show (0 : Fin 3) ∉ GatherDims.startIndexMap gd from fun h => absurd (List.mem_singleton.mp h) (by decide))]
    simp only [Nat.add_zero, Nat.zero_add]
    rfl
  | ⟨1, _⟩ =>
    show GatherDims.start gd y idx 1 + GatherDims.batchCoord gd y 1 + GatherDims.offCoord gd y 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gd from List.mem_singleton.mpr rfl)]
    rw [hsi]
    rfl
  | ⟨2, _⟩ =>
    show GatherDims.start gd y idx 2 + GatherDims.batchCoord gd y 2 + GatherDims.offCoord gd y 2 = (y 2).val
    rw [GatherDims.batchCoord_eq_zero _ _ _ List.not_mem_nil]
    unfold GatherDims.start
    rw [dif_neg (show (2 : Fin 3) ∉ GatherDims.startIndexMap gd from fun h => absurd (List.mem_singleton.mp h) (by decide))]
    simp only [Nat.add_zero, Nat.zero_add]
    rfl

end Cert.ReferenceIdeal.Lookup

end
-- ==== Proof.RefValue.lean ====
/-
  The reference program read at one edge.

  Every edge `e` looks up four vertex rows: an index word is wrapped (a negative one moves up by the number of
  vertices), read as a signed integer and clamped into the table, and the row it names is read coordinate by
  coordinate.  From the four points the program forms the edge vectors `a = p1 - p0`, `b = p2 - p0`,
  `c = p3 - p0`, their squared lengths and dot products (each a sum of three products, started from zero),
  the two wings `b - a·(a·b / (|a|² + ε))` and `c - a·(a·c / (|a|² + ε))` with their lengths, and the cosine
  between the wings.  Each of these is shown to be the corresponding expression of the specification, in the
  same order of operands, so that nothing beyond `0 + x = x` and the shape of a three-term sum is used.
  The loss is the sum over all edges of `(cos + 1)²`, again started from zero.
-/
import proofs.«136911_j62929860821311_2_alg».proof.Proof.Gen.ReferenceIdeal.Read
import proofs.«136911_j62929860821311_2_alg».proof.Proof.Spec
import proofs.«136911_j62929860821311_2_alg».proof.Proof.GatherRef
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Cert.Dihedral

variable (x0 : (⟨S2000000x3, .f32⟩ : BufTy).Contents (Elt Ideal))
  (x1 x2 x3 x4 : (⟨S6000000, .i32⟩ : BufTy).Contents (Elt Ideal))

/-! ## The wrapped index words -/

/-- The column of start indices of the first lookup holds the wrapped index word of each edge. -/
theorem wrap_v6 (e : Fin 6000000) :
    val_main_v6 (F := Ideal) x1 (ix2 e (0 : Fin 1)) = wrap (x1 (ix1 e)) := by
  have h : idx_main_v6 (ix2 e (0 : Fin 1)) = ix1 e := by
    funext a; match a with | ⟨0, _⟩ => rfl
  rw [val_main_v6_apply, h, val_main_v5_apply, val_main_v2_apply, val_main_v4_apply, val_main_v1_apply,
    val_main_v3_apply, val_main_c_apply, val_main_c_0_apply]
  rfl

/-- The same for the second lookup. -/
theorem wrap_v13 (e : Fin 6000000) :
    val_main_v13 (F := Ideal) x2 (ix2 e (0 : Fin 1)) = wrap (x2 (ix1 e)) := by
  have h : idx_main_v13 (ix2 e (0 : Fin 1)) = ix1 e := by
    funext a; match a with | ⟨0, _⟩ => rfl
  rw [val_main_v13_apply, h, val_main_v12_apply, val_main_v9_apply, val_main_v11_apply, val_main_v8_apply,
    val_main_v10_apply, val_main_c_1_apply, val_main_c_2_apply]
  rfl

/-- The same for the third lookup. -/
theorem wrap_v20 (e : Fin 6000000) :
    val_main_v20 (F := Ideal) x3 (ix2 e (0 : Fin 1)) = wrap (x3 (ix1 e)) := by
  have h : idx_main_v20 (ix2 e (0 : Fin 1)) = ix1 e := by
    funext a; match a with | ⟨0, _⟩ => rfl
  rw [val_main_v20_apply, h, val_main_v19_apply, val_main_v16_apply, val_main_v18_apply, val_main_v15_apply,
    val_main_v17_apply, val_main_c_3_apply, val_main_c_4_apply]
  rfl

/-- The same for the fourth lookup. -/
theorem wrap_v27 (e : Fin 6000000) :
    val_main_v27 (F := Ideal) x4 (ix2 e (0 : Fin 1)) = wrap (x4 (ix1 e)) := by
  have h : idx_main_v27 (ix2 e (0 : Fin 1)) = ix1 e := by
    funext a; match a with | ⟨0, _⟩ => rfl
  rw [val_main_v27_apply, h, val_main_v26_apply, val_main_v23_apply, val_main_v25_apply, val_main_v22_apply,
    val_main_v24_apply, val_main_c_5_apply, val_main_c_6_apply]
  rfl

/-! ## The four points -/

/-- The table broadcast to `[1, V, 3]`, read at the row a word selects (signed, clamped), is the table at that
    row; the word may be given up to an equation. -/
theorem table_read {w w' : BitVec 32} (h : w = w') (k : Fin 3) :
    val_main_v0 (F := Ideal) x0
        (ix3 (0 : Fin 1) (⟨min w.toInt.toNat (2000000 - 1), by omega⟩ : Fin 2000000) k)
      = x0 (ix2 (⟨min w'.toInt.toNat (2000000 - 1), by omega⟩ : Fin 2000000) k) := by
  subst h
  rw [val_main_v0_apply]
  refine congrArg x0 ?_
  funext a; match a with | ⟨0, _⟩ => rfl | ⟨1, _⟩ => rfl

/-- Coordinate `k` of the first point of edge `e`. -/
theorem pt_v7 (e : Fin 6000000) (k : Fin 3) :
    val_main_v7 (F := Ideal) x0 x1 (ix3 (0 : Fin 1) e k) = x0 (ix2 (row (x1 (ix1 e))) k) := by
  unfold val_main_v7
  rw [Lookup.gather_apply]
  show val_main_v0 (F := Ideal) x0 (ix3 (0 : Fin 1)
    (⟨min (val_main_v6 (F := Ideal) x1 (ix2 e (0 : Fin 1))).toInt.toNat (2000000 - 1), by omega⟩ : Fin 2000000) k) = _
  exact table_read x0 (wrap_v6 x1 e) k

/-- Coordinate `k` of the second point of edge `e`. -/
theorem pt_v14 (e : Fin 6000000) (k : Fin 3) :
    val_main_v14 (F := Ideal) x0 x2 (ix3 (0 : Fin 1) e k) = x0 (ix2 (row (x2 (ix1 e))) k) := by
  unfold val_main_v14
  rw [Lookup.gather_apply]
  show val_main_v0 (F := Ideal) x0 (ix3 (0 : Fin 1)
    (⟨min (val_main_v13 (F := Ideal) x2 (ix2 e (0 : Fin 1))).toInt.toNat (2000000 - 1), by omega⟩ : Fin 2000000) k) = _
  exact table_read x0 (wrap_v13 x2 e) k

/-- Coordinate `k` of the third point of edge `e`. -/
theorem pt_v21 (e : Fin 6000000) (k : Fin 3) :
    val_main_v21 (F := Ideal) x0 x3 (ix3 (0 : Fin 1) e k) = x0 (ix2 (row (x3 (ix1 e))) k) := by
  unfold val_main_v21
  rw [Lookup.gather_apply]
  show val_main_v0 (F := Ideal) x0 (ix3 (0 : Fin 1)
    (⟨min (val_main_v20 (F := Ideal) x3 (ix2 e (0 : Fin 1))).toInt.toNat (2000000 - 1), by omega⟩ : Fin 2000000) k) = _
  exact table_read x0 (wrap_v20 x3 e) k

/-- Coordinate `k` of the fourth point of edge `e`. -/
theorem pt_v28 (e : Fin 6000000) (k : Fin 3) :
    val_main_v28 (F := Ideal) x0 x4 (ix3 (0 : Fin 1) e k) = x0 (ix2 (row (x4 (ix1 e))) k) := by
  unfold val_main_v28
  rw [Lookup.gather_apply]
  show val_main_v0 (F := Ideal) x0 (ix3 (0 : Fin 1)
    (⟨min (val_main_v27 (F := Ideal) x4 (ix2 e (0 : Fin 1))).toInt.toNat (2000000 - 1), by omega⟩ : Fin 2000000) k) = _
  exact table_read x0 (wrap_v27 x4 e) k

/-! ## The edge vectors -/

/-- Coordinate `k` of `a = p1 - p0` for edge `e`. -/
abbrev A (e : Fin 6000000) (k : Fin 3) : EReal :=
  x0 (ix2 (row (x2 (ix1 e))) k) - x0 (ix2 (row (x1 (ix1 e))) k)
/-- Coordinate `k` of `b = p2 - p0` for edge `e`. -/
abbrev B (e : Fin 6000000) (k : Fin 3) : EReal :=
  x0 (ix2 (row (x3 (ix1 e))) k) - x0 (ix2 (row (x1 (ix1 e))) k)
/-- Coordinate `k` of `c = p3 - p0` for edge `e`. -/
abbrev C (e : Fin 6000000) (k : Fin 3) : EReal :=
  x0 (ix2 (row (x4 (ix1 e))) k) - x0 (ix2 (row (x1 (ix1 e))) k)

/-- `|a|²` for edge `e`. -/
abbrev al2 (e : Fin 6000000) : EReal := sq3 (A x0 x1 x2 e 0) (A x0 x1 x2 e 1) (A x0 x1 x2 e 2)
/-- `|b|²` for edge `e`. -/
abbrev bl2 (e : Fin 6000000) : EReal := sq3 (B x0 x1 x3 e 0) (B x0 x1 x3 e 1) (B x0 x1 x3 e 2)
/-- `|c|²` for edge `e`. -/
abbrev cl2 (e : Fin 6000000) : EReal := sq3 (C x0 x1 x4 e 0) (C x0 x1 x4 e 1) (C x0 x1 x4 e 2)
/-- `a·b` for edge `e`. -/
abbrev ab (e : Fin 6000000) : EReal :=
  dot3 (A x0 x1 x2 e 0) (A x0 x1 x2 e 1) (A x0 x1 x2 e 2) (B x0 x1 x3 e 0) (B x0 x1 x3 e 1) (B x0 x1 x3 e 2)
/-- `a·c` for edge `e`. -/
abbrev ac (e : Fin 6000000) : EReal :=
  dot3 (A x0 x1 x2 e 0) (A x0 x1 x2 e 1) (A x0 x1 x2 e 2) (C x0 x1 x4 e 0) (C x0 x1 x4 e 1) (C x0 x1 x4 e 2)

theorem a_v29 (e : Fin 6000000) (k : Fin 3) :
    val_main_v29 (F := Ideal) x0 x1 x2 (ix3 (0 : Fin 1) e k) = A x0 x1 x2 e k := by
  rw [val_main_v29_apply, pt_v14, pt_v7]
  rfl

theorem b_v30 (e : Fin 6000000) (k : Fin 3) :
    val_main_v30 (F := Ideal) x0 x1 x3 (ix3 (0 : Fin 1) e k) = B x0 x1 x3 e k := by
  rw [val_main_v30_apply, pt_v21, pt_v7]
  rfl

theorem c_v61 (e : Fin 6000000) (k : Fin 3) :
    val_main_v61 (F := Ideal) x0 x1 x4 (ix3 (0 : Fin 1) e k) = C x0 x1 x4 e k := by
  rw [val_main_v61_apply, pt_v28, pt_v7]
  rfl

/-! ## Sums of three products

A sum along the last axis at `(0, e)` runs over the positions `(0, e, k)`, `k = 0, 1, 2`, and starts from zero. -/

theorem idx_v32 (e : Fin 6000000) (k : Fin 3) : idx_main_v32 (ix2 (0 : Fin 1) e) k = ix3 (0 : Fin 1) e k := by
  funext a; match a with | ⟨0, _⟩ => rfl | ⟨1, _⟩ => rfl | ⟨2, _⟩ => rfl
theorem idx_v34 (e : Fin 6000000) (k : Fin 3) : idx_main_v34 (ix2 (0 : Fin 1) e) k = ix3 (0 : Fin 1) e k := by
  funext a; match a with | ⟨0, _⟩ => rfl | ⟨1, _⟩ => rfl | ⟨2, _⟩ => rfl
theorem idx_v42 (e : Fin 6000000) (k : Fin 3) : idx_main_v42 (ix2 (0 : Fin 1) e) k = ix3 (0 : Fin 1) e k := by
  funext a; match a with | ⟨0, _⟩ => rfl | ⟨1, _⟩ => rfl | ⟨2, _⟩ => rfl
theorem idx_v63 (e : Fin 6000000) (k : Fin 3) : idx_main_v63 (ix2 (0 : Fin 1) e) k = ix3 (0 : Fin 1) e k := by
  funext a; match a with | ⟨0, _⟩ => rfl | ⟨1, _⟩ => rfl | ⟨2, _⟩ => rfl
theorem idx_v65 (e : Fin 6000000) (k : Fin 3) : idx_main_v65 (ix2 (0 : Fin 1) e) k = ix3 (0 : Fin 1) e k := by
  funext a; match a with | ⟨0, _⟩ => rfl | ⟨1, _⟩ => rfl | ⟨2, _⟩ => rfl
theorem idx_v73 (e : Fin 6000000) (k : Fin 3) : idx_main_v73 (ix2 (0 : Fin 1) e) k = ix3 (0 : Fin 1) e k := by
  funext a; match a with | ⟨0, _⟩ => rfl | ⟨1, _⟩ => rfl | ⟨2, _⟩ => rfl
theorem idx_v93 (e : Fin 6000000) (k : Fin 3) : idx_main_v93 (ix2 (0 : Fin 1) e) k = ix3 (0 : Fin 1) e k := by
  funext a; match a with | ⟨0, _⟩ => rfl | ⟨1, _⟩ => rfl | ⟨2, _⟩ => rfl

/-- `|a|²`, as the first wing computes it. -/
theorem al2_v32 (e : Fin 6000000) :
    val_main_v32 (F := Ideal) x0 x1 x2 (ix2 (0 : Fin 1) e) = al2 x0 x1 x2 e := by
  rw [val_main_v32_apply, Fin.sum_univ_three, val_main_cst_apply, Ideal.ofBits_def, Ideal.ofBits_zero_f32, zero_add]
  simp only [idx_v32, val_main_v31_apply, a_v29]
  rfl

/-- `|b|²`. -/
theorem bl2_v34 (e : Fin 6000000) :
    val_main_v34 (F := Ideal) x0 x1 x3 (ix2 (0 : Fin 1) e) = bl2 x0 x1 x3 e := by
  rw [val_main_v34_apply, Fin.sum_univ_three, val_main_cst_7_apply, Ideal.ofBits_def, Ideal.ofBits_zero_f32, zero_add]
  simp only [idx_v34, val_main_v33_apply, b_v30]
  rfl

/-- `a·b`. -/
theorem ab_v42 (e : Fin 6000000) :
    val_main_v42 (F := Ideal) x0 x1 x2 x3 (ix2 (0 : Fin 1) e) = ab x0 x1 x2 x3 e := by
  rw [val_main_v42_apply, Fin.sum_univ_three, val_main_cst_10_apply, Ideal.ofBits_def, Ideal.ofBits_zero_f32, zero_add]
  simp only [idx_v42, val_main_v41_apply, a_v29, b_v30]
  rfl

/-- `|a|²`, as the second wing computes it again. -/
theorem al2_v63 (e : Fin 6000000) :
    val_main_v63 (F := Ideal) x0 x1 x2 (ix2 (0 : Fin 1) e) = al2 x0 x1 x2 e := by
  rw [val_main_v63_apply, Fin.sum_univ_three, val_main_cst_15_apply, Ideal.ofBits_def, Ideal.ofBits_zero_f32, zero_add]
  simp only [idx_v63, val_main_v62_apply, a_v29]
  rfl

/-- `|c|²`. -/
theorem cl2_v65 (e : Fin 6000000) :
    val_main_v65 (F := Ideal) x0 x1 x4 (ix2 (0 : Fin 1) e) = cl2 x0 x1 x4 e := by
  rw [val_main_v65_apply, Fin.sum_univ_three, val_main_cst_16_apply, Ideal.ofBits_def, Ideal.ofBits_zero_f32, zero_add]
  simp only [idx_v65, val_main_v64_apply, c_v61]
  rfl

/-- `a·c`. -/
theorem ac_v73 (e : Fin 6000000) :
    val_main_v73 (F := Ideal) x0 x1 x2 x4 (ix2 (0 : Fin 1) e) = ac x0 x1 x2 x4 e := by
  rw [val_main_v73_apply, Fin.sum_univ_three, val_main_cst_19_apply, Ideal.ofBits_def, Ideal.ofBits_zero_f32, zero_add]
  simp only [idx_v73, val_main_v72_apply, a_v29, c_v61]
  rfl

/-! ## The two constants, spread over the edges -/

theorem eps_v35 (i : S1x6000000.Idx) : val_main_v35 (F := Ideal) i = eps := by
  rw [val_main_v35_apply, val_main_cst_8_apply]; rfl
theorem eps_v38 (i : S1x6000000.Idx) : val_main_v38 (F := Ideal) i = eps := by
  rw [val_main_v38_apply, val_main_cst_9_apply]; rfl
theorem eps_v44 (i : S1x6000000.Idx) : val_main_v44 (F := Ideal) i = eps := by
  rw [val_main_v44_apply, val_main_cst_11_apply]; rfl
theorem eps_v50 (i : S1x6000000.Idx) : val_main_v50 (F := Ideal) i = eps := by
  rw [val_main_v50_apply, val_main_cst_13_apply]; rfl
theorem eps_v53 (i : S1x6000000.Idx) : val_main_v53 (F := Ideal) i = eps := by
  rw [val_main_v53_apply, val_main_cst_14_apply]; rfl
theorem eps_v66 (i : S1x6000000.Idx) : val_main_v66 (F := Ideal) i = eps := by
  rw [val_main_v66_apply, val_main_cst_17_apply]; rfl
theorem eps_v69 (i : S1x6000000.Idx) : val_main_v69 (F := Ideal) i = eps := by
  rw [val_main_v69_apply, val_main_cst_18_apply]; rfl
theorem eps_v75 (i : S1x6000000.Idx) : val_main_v75 (F := Ideal) i = eps := by
  rw [val_main_v75_apply, val_main_cst_20_apply]; rfl
theorem eps_v81 (i : S1x6000000.Idx) : val_main_v81 (F := Ideal) i = eps := by
  rw [val_main_v81_apply, val_main_cst_22_apply]; rfl
theorem eps_v84 (i : S1x6000000.Idx) : val_main_v84 (F := Ideal) i = eps := by
  rw [val_main_v84_apply, val_main_cst_23_apply]; rfl
theorem eps_v95 (i : S1x6000000.Idx) : val_main_v95 (F := Ideal) i = eps := by
  rw [val_main_v95_apply, val_main_cst_25_apply]; rfl
theorem one_v48 (i : S1x6000000.Idx) : val_main_v48 (F := Ideal) i = one := by
  rw [val_main_v48_apply, val_main_cst_12_apply]; rfl
theorem one_v79 (i : S1x6000000.Idx) : val_main_v79 (F := Ideal) i = one := by
  rw [val_main_v79_apply, val_main_cst_21_apply]; rfl
theorem one_v98 (i : S1x6000000.Idx) : val_main_v98 (F := Ideal) i = one := by
  rw [val_main_v98_apply, val_main_cst_26_apply]; rfl

/-! ## The first wing: `b` over `a` -/

/-- The regularised cosine of the angle between `a` and `b`. -/
theorem cos_v46 (e : Fin 6000000) :
    val_main_v46 (F := Ideal) x0 x1 x2 x3 (ix2 (0 : Fin 1) e)
      = cosAng (al2 x0 x1 x2 e) (bl2 x0 x1 x3 e) (ab x0 x1 x2 x3 e) := by
  rw [val_main_v46_apply, val_main_v45_apply, val_main_v43_apply, val_main_v37_apply, val_main_v36_apply,
    val_main_v40_apply, val_main_v39_apply, ab_v42, al2_v32, bl2_v34, eps_v35, eps_v38, eps_v44]
  rfl

/-- The length of the component of `b` orthogonal to `a`. -/
theorem perp_v60 (e : Fin 6000000) :
    val_main_v60 (F := Ideal) x0 x1 x2 x3 (ix2 (0 : Fin 1) e)
      = perpLen (al2 x0 x1 x2 e) (bl2 x0 x1 x3 e) (ab x0 x1 x2 x3 e) := by
  rw [val_main_v60_apply, val_main_v40_apply, val_main_v39_apply, val_main_v52_apply, val_main_v51_apply,
    val_main_v49_apply, val_main_v47_apply, cos_v46, bl2_v34, eps_v38, one_v48, eps_v50]
  rfl

/-- The projection coefficient `a·b / (|a|² + ε)`, spread over the three coordinates. -/
theorem coef_v57 (e : Fin 6000000) (k : Fin 3) :
    val_main_v57 (F := Ideal) x0 x1 x2 x3 (ix3 (0 : Fin 1) e k)
      = coef (al2 x0 x1 x2 e) (ab x0 x1 x2 x3 e) := by
  have h : idx_main_v56 (idx_main_v57 (ix3 (0 : Fin 1) e k)) = ix2 (0 : Fin 1) e := by
    funext a; match a with | ⟨0, _⟩ => rfl | ⟨1, _⟩ => rfl
  rw [val_main_v57_apply, val_main_v56_apply, h, val_main_v55_apply, val_main_v54_apply, ab_v42, al2_v32, eps_v53]
  rfl

/-- Coordinate `k` of the wing `b - a·(a·b / (|a|² + ε))`. -/
theorem wing_v59 (e : Fin 6000000) (k : Fin 3) :
    val_main_v59 (F := Ideal) x0 x1 x2 x3 (ix3 (0 : Fin 1) e k)
      = B x0 x1 x3 e k - A x0 x1 x2 e k * coef (al2 x0 x1 x2 e) (ab x0 x1 x2 x3 e) := by
  rw [val_main_v59_apply, val_main_v58_apply, b_v30, a_v29, coef_v57]
  rfl

/-! ## The second wing: `c` over `a` -/

/-- The regularised cosine of the angle between `a` and `c`. -/
theorem cos_v77 (e : Fin 6000000) :
    val_main_v77 (F := Ideal) x0 x1 x2 x4 (ix2 (0 : Fin 1) e)
      = cosAng (al2 x0 x1 x2 e) (cl2 x0 x1 x4 e) (ac x0 x1 x2 x4 e) := by
  rw [val_main_v77_apply, val_main_v76_apply, val_main_v74_apply, val_main_v68_apply, val_main_v67_apply,
    val_main_v71_apply, val_main_v70_apply, ac_v73, al2_v63, cl2_v65, eps_v66, eps_v69, eps_v75]
  rfl

/-- The length of the component of `c` orthogonal to `a`. -/
theorem perp_v91 (e : Fin 6000000) :
    val_main_v91 (F := Ideal) x0 x1 x2 x4 (ix2 (0 : Fin 1) e)
      = perpLen (al2 x0 x1 x2 e) (cl2 x0 x1 x4 e) (ac x0 x1 x2 x4 e) := by
  rw [val_main_v91_apply, val_main_v71_apply, val_main_v70_apply, val_main_v83_apply, val_main_v82_apply,
    val_main_v80_apply, val_main_v78_apply, cos_v77, cl2_v65, eps_v69, one_v79, eps_v81]
  rfl

/-- The projection coefficient `a·c / (|a|² + ε)`, spread over the three coordinates. -/
theorem coef_v88 (e : Fin 6000000) (k : Fin 3) :
    val_main_v88 (F := Ideal) x0 x1 x2 x4 (ix3 (0 : Fin 1) e k)
      = coef (al2 x0 x1 x2 e) (ac x0 x1 x2 x4 e) := by
  have h : idx_main_v87 (idx_main_v88 (ix3 (0 : Fin 1) e k)) = ix2 (0 : Fin 1) e := by
    funext a; match a with | ⟨0, _⟩ => rfl | ⟨1, _⟩ => rfl
  rw [val_main_v88_apply, val_main_v87_apply, h, val_main_v86_apply, val_main_v85_apply, ac_v73, al2_v63, eps_v84]
  rfl

/-- Coordinate `k` of the wing `c - a·(a·c / (|a|² + ε))`. -/
theorem wing_v90 (e : Fin 6000000) (k : Fin 3) :
    val_main_v90 (F := Ideal) x0 x1 x2 x4 (ix3 (0 : Fin 1) e k)
      = C x0 x1 x4 e k - A x0 x1 x2 e k * coef (al2 x0 x1 x2 e) (ac x0 x1 x2 x4 e) := by
  rw [val_main_v90_apply, val_main_v89_apply, c_v61, a_v29, coef_v88]
  rfl

/-! ## The dihedral cosine and the loss -/

/-- The dot product of the two wings. -/
theorem dot_v93 (e : Fin 6000000) :
    val_main_v93 (F := Ideal) x0 x1 x2 x3 x4 (ix2 (0 : Fin 1) e)
      = dot3
          (B x0 x1 x3 e 0 - A x0 x1 x2 e 0 * coef (al2 x0 x1 x2 e) (ab x0 x1 x2 x3 e))
          (B x0 x1 x3 e 1 - A x0 x1 x2 e 1 * coef (al2 x0 x1 x2 e) (ab x0 x1 x2 x3 e))
          (B x0 x1 x3 e 2 - A x0 x1 x2 e 2 * coef (al2 x0 x1 x2 e) (ab x0 x1 x2 x3 e))
          (C x0 x1 x4 e 0 - A x0 x1 x2 e 0 * coef (al2 x0 x1 x2 e) (ac x0 x1 x2 x4 e))
          (C x0 x1 x4 e 1 - A x0 x1 x2 e 1 * coef (al2 x0 x1 x2 e) (ac x0 x1 x2 x4 e))
          (C x0 x1 x4 e 2 - A x0 x1 x2 e 2 * coef (al2 x0 x1 x2 e) (ac x0 x1 x2 x4 e)) := by
  rw [val_main_v93_apply, Fin.sum_univ_three, val_main_cst_24_apply, Ideal.ofBits_def, Ideal.ofBits_zero_f32, zero_add]
  simp only [idx_v93, val_main_v92_apply, wing_v59, wing_v90]
  rfl

/-- The cosine the program writes for edge `e` is the specification's. -/
theorem cos_v97 (e : Fin 6000000) :
    val_main_v97 (F := Ideal) x0 x1 x2 x3 x4 (ix2 (0 : Fin 1) e) = cosAt x0 x1 x2 x3 x4 e := by
  rw [val_main_v97_apply, val_main_v96_apply, val_main_v94_apply, dot_v93, perp_v60, perp_v91, eps_v95]
  rfl

/-- The array of cosines. -/
theorem cos_eq : val_main_v97 (F := Ideal) x0 x1 x2 x3 x4 = cosArr x0 x1 x2 x3 x4 := by
  funext j
  have hj : j = ix2 (0 : Fin 1) (j 1) := by
    funext a
    match a with
    | ⟨0, _⟩ => exact Subsingleton.elim (α := Fin 1) _ _
    | ⟨1, _⟩ => rfl
  exact (congrArg (val_main_v97 (F := Ideal) x0 x1 x2 x3 x4) hj).trans (cos_v97 x0 x1 x2 x3 x4 (j 1))

/-- The loss. -/
theorem loss_eq : val_main_v101 (F := Ideal) x0 x1 x2 x3 x4 = lossArr x0 x1 x2 x3 x4 := by
  funext i
  rw [val_main_v101_apply, val_main_cst_27_apply, Ideal.ofBits_def, Ideal.ofBits_zero_f32, zero_add]
  show _ = ∑ e : Fin 6000000, contrib (cosAt x0 x1 x2 x3 x4 e)
  refine Finset.sum_congr rfl fun e _ => ?_
  have h : idx_main_v101 i e = ix2 (0 : Fin 1) e := by
    funext a
    match a with
    | ⟨0, _⟩ => exact Subsingleton.elim (α := Fin 1) _ _
    | ⟨1, _⟩ => rfl
  rw [h, val_main_v100_apply, val_main_v99_apply, cos_v97, one_v98]
  rfl

end Cert.ReferenceIdeal.RefValue

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.LibUnitSum.lean ====
/-
  Sums over index sets with unit axes: a sum over every index of a shape whose axes all have size one but
  one is the sum over that axis's coordinate.
-/
import Idealize.ShloMosaic.Lib.ValueIdx

open scoped BigOperators

namespace Cert.Lib

open Idealize.ShloMosaic Idealize.ShloMosaic.ValueIdx

variable {M : Type*} [AddCommMonoid M]

/-- Over `[1, n]`: the sum over all indices is the sum over the second coordinate. -/
theorem sum_idx_1n {n : ℕ} (f : (⟨2, ![1, n]⟩ : Shape).Idx → M) :
    ∑ i, f i = ∑ l : Fin n, f (ix2 (0 : Fin 1) l) := by
  have hl : ∀ i : (⟨2, ![1, n]⟩ : Shape).Idx, ix2 (0 : Fin 1) (i 1) = i := fun i => by
    funext d
    match d with
    | ⟨0, _⟩ => exact Subsingleton.elim (α := Fin 1) _ _
    | ⟨1, _⟩ => rfl
  let e : (⟨2, ![1, n]⟩ : Shape).Idx ≃ Fin n :=
    { toFun := fun i => i 1, invFun := fun l => ix2 (0 : Fin 1) l, left_inv := hl, right_inv := fun _ => rfl }
  exact Fintype.sum_equiv e _ _ (fun i => congrArg f (hl i).symm)

/-- Over `[1, 1, n]`: the sum over all indices is the sum over the last coordinate. -/
theorem sum_idx_11n {n : ℕ} (f : (⟨3, ![1, 1, n]⟩ : Shape).Idx → M) :
    ∑ i, f i = ∑ l : Fin n, f (ix3 (0 : Fin 1) (0 : Fin 1) l) := by
  have hl : ∀ i : (⟨3, ![1, 1, n]⟩ : Shape).Idx, ix3 (0 : Fin 1) (0 : Fin 1) (i 2) = i := fun i => by
    funext d
    match d with
    | ⟨0, _⟩ => exact Subsingleton.elim (α := Fin 1) _ _
    | ⟨1, _⟩ => exact Subsingleton.elim (α := Fin 1) _ _
    | ⟨2, _⟩ => rfl
  let e : (⟨3, ![1, 1, n]⟩ : Shape).Idx ≃ Fin n :=
    { toFun := fun i => i 2, invFun := fun l => ix3 (0 : Fin 1) (0 : Fin 1) l, left_inv := hl, right_inv := fun _ => rfl }
  exact Fintype.sum_equiv e _ _ (fun i => congrArg f (hl i).symm)

/-- Over `[n, 1, 1]`: the sum over all indices is the sum over the first coordinate. -/
theorem sum_idx_n11 {n : ℕ} (f : (⟨3, ![n, 1, 1]⟩ : Shape).Idx → M) :
    ∑ i, f i = ∑ s : Fin n, f (ix3 s (0 : Fin 1) (0 : Fin 1)) := by
  have hl : ∀ i : (⟨3, ![n, 1, 1]⟩ : Shape).Idx, ix3 (i 0) (0 : Fin 1) (0 : Fin 1) = i := fun i => by
    funext d
    match d with
    | ⟨0, _⟩ => rfl
    | ⟨1, _⟩ => exact Subsingleton.elim (α := Fin 1) _ _
    | ⟨2, _⟩ => exact Subsingleton.elim (α := Fin 1) _ _
  let e : (⟨3, ![n, 1, 1]⟩ : Shape).Idx ≃ Fin n :=
    { toFun := fun i => i 0, invFun := fun s => ix3 s (0 : Fin 1) (0 : Fin 1), left_inv := hl, right_inv := fun _ => rfl }
  exact Fintype.sum_equiv e _ _ (fun i => congrArg f (hl i).symm)

end Cert.Lib
-- ==== Proof.LossRegroup.lean ====
/-
  The loss taken block by block.  The edges are cut into 75 consecutive blocks of 80000; each block contributes
  the sum of `(cos + 1)²` over its own edges, and the sum of the 75 contributions is the sum over all edges:
  only commutativity and associativity of addition on the extended reals are used.
-/
import proofs.«136911_j62929860821311_2_alg».proof.Proof.Spec
import proofs.«136911_j62929860821311_2_alg».proof.Proof.LibBlockSum
import proofs.«136911_j62929860821311_2_alg».proof.Proof.LibUnitSum

noncomputable section

open scoped BigOperators

namespace Cert.Dihedral

open Idealize.ShloMosaic Idealize.ShloMosaic.ValueIdx

/-- The edge in lane `l` of block `s`. -/
def edgeOf (s : Fin 75) (l : Fin 80000) : Fin 6000000 :=
  ⟨s.val * 80000 + l.val, by have := s.isLt; have := l.isLt; omega⟩

/-- A sum over all edges is the sum over the blocks of each block's own sum. -/
theorem sum_by_blocks {M : Type*} [AddCommMonoid M] (f : Fin 6000000 → M) :
    ∑ s : Fin 75, ∑ l : Fin 80000, f (edgeOf s l) = ∑ e : Fin 6000000, f e := by
  let g : ℕ → M := fun n => if h : n < 6000000 then f ⟨n, h⟩ else 0
  have h := Cert.Lib.sum_blocks 75 80000 g
  rw [Finset.sum_range] at h
  have hl : ∑ s : Fin 75, ∑ l : Fin 80000, f (edgeOf s l) = ∑ s : Fin 75, ∑ l : Fin 80000, g (80000 * s.val + l.val) := by
    refine Finset.sum_congr rfl fun s _ => Finset.sum_congr rfl fun l _ => ?_
    have hs := s.isLt
    have hlt := l.isLt
    have hb : 80000 * s.val + l.val < 6000000 := by omega
    show f (edgeOf s l) = if h : 80000 * s.val + l.val < 6000000 then f ⟨80000 * s.val + l.val, h⟩ else 0
    rw [dif_pos hb]
    exact congrArg f (Fin.ext (by show s.val * 80000 + l.val = 80000 * s.val + l.val; omega))
  have hr : ∑ k : Fin (75 * 80000), g k.val = ∑ e : Fin 6000000, f e := by
    show ∑ k : Fin 6000000, g k.val = ∑ e : Fin 6000000, f e
    refine Finset.sum_congr rfl fun e _ => ?_
    show (if h : e.val < 6000000 then f ⟨e.val, h⟩ else 0) = f e
    rw [dif_pos e.isLt]
  exact hl.trans (h.trans hr)

section Arrays

variable (V : (⟨2, ![2000000, 3]⟩ : Shape).Idx → EReal)
  (i0 i1 i2 i3 : (⟨1, ![6000000]⟩ : Shape).Idx → BitVec 32)

/-- The 75 block contributions to the loss, laid out as a `[75, 1, 1]` array. -/
def partials : (⟨3, ![75, 1, 1]⟩ : Shape).Idx → EReal :=
  fun i => ∑ l : Fin 80000, contrib (cosAt V i0 i1 i2 i3 (edgeOf (i 0) l))

/-- The sum of all block contributions is the loss. -/
theorem sum_partials (y : (⟨1, ![1]⟩ : Shape).Idx) :
    ∑ i, partials V i0 i1 i2 i3 i = lossArr V i0 i1 i2 i3 y := by
  rw [Cert.Lib.sum_idx_n11]
  exact sum_by_blocks (fun e => contrib (cosAt V i0 i1 i2 i3 e))

end Arrays

end Cert.Dihedral

end
-- ==== Proof.BodyCos.lean ====
/-
  What the body computes at one lane from its twelve coordinate blocks (the x, y, z lanes of the four points of
  80000 edges): the dihedral cosine of that lane's four points.  The body's arithmetic is read one named piece
  at a time — the edge vectors, their squared lengths and dot products, the projection coefficient, the wing and its
  length — and the pieces are then put together.
-/
import proofs.«136911_j62929860821311_2_alg».proof.Proof.Gen.KernelIdeal.Skeleton
import proofs.«136911_j62929860821311_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.ValueIdx Cert.Dihedral

section Defs
variable {F : FTy → Type} [FloatOps F]

/-- The block of cosines the body stores, as a function of the twelve coordinate blocks. -/
def cosBlk (x0 : Vec F S1x80000 .f32) (x1 : Vec F S1x80000 .f32) (x2 : Vec F S1x80000 .f32) (x3 : Vec F S1x80000 .f32) (x4 : Vec F S1x80000 .f32) (x5 : Vec F S1x80000 .f32) (x6 : Vec F S1x80000 .f32) (x7 : Vec F S1x80000 .f32) (x8 : Vec F S1x80000 .f32) (x9 : Vec F S1x80000 .f32) (x10 : Vec F S1x80000 .f32) (x11 : Vec F S1x80000 .f32) : FVec F S1x80000 .f32 :=
  k0_pay25 (k0_pay4 x0 x3) (k0_pay5 x1 x4) (k0_pay6 x2 x5) (k0_pay10 x0 x9) (k0_pay11 x1 x10) (k0_pay12 x2 x11)
    (k0_pay18 (k0_pay4 x0 x3) (k0_pay5 x1 x4) (k0_pay6 x2 x5) (k0_pay7 x0 x6) (k0_pay8 x1 x7) (k0_pay9 x2 x8) (k0_pay13 x0 x3) (k0_pay14 x1 x4))
    (k0_pay19 (k0_pay4 x0 x3) (k0_pay5 x1 x4) (k0_pay6 x2 x5) (k0_pay7 x0 x6) (k0_pay8 x1 x7) (k0_pay9 x2 x8) (k0_pay13 x0 x3) (k0_pay14 x1 x4))
    (k0_pay20 (k0_pay4 x0 x3) (k0_pay5 x1 x4) (k0_pay6 x2 x5) (k0_pay7 x0 x6) (k0_pay8 x1 x7) (k0_pay9 x2 x8) (k0_pay13 x0 x3) (k0_pay14 x1 x4))
    (k0_pay21 (k0_pay4 x0 x3) (k0_pay5 x1 x4) (k0_pay6 x2 x5) (k0_pay7 x0 x6) (k0_pay8 x1 x7) (k0_pay9 x2 x8) (k0_pay13 x0 x3) (k0_pay14 x1 x4))
    (k0_pay22 (k0_pay4 x0 x3) (k0_pay5 x1 x4) (k0_pay6 x2 x5))
    (k0_pay23 (k0_pay10 x0 x9) (k0_pay11 x1 x10) (k0_pay12 x2 x11))
    (k0_pay24 (k0_pay4 x0 x3) (k0_pay5 x1 x4) (k0_pay6 x2 x5))
    (Scalar.ofBits .f32 0x358637BD#32)

end Defs

/-! ## The edge vectors, lane by lane: a coordinate of `p1`, `p2` or `p3` minus the same coordinate of `p0` -/

/-- A coordinate of an edge vector at lane `j`. -/
theorem pay4_apply (a b : Vec Ideal S1x80000 .f32) (j : S1x80000.Idx) : k0_pay4 a b j = b j - a j := by
  simp only [k0_pay4, k0_pay1, k0_pay2, k0_pay3, shapeCast_self]
  rfl

/-- A coordinate of an edge vector at lane `j`. -/
theorem pay5_apply (a b : Vec Ideal S1x80000 .f32) (j : S1x80000.Idx) : k0_pay5 a b j = b j - a j := by
  simp only [k0_pay5, k0_pay1, k0_pay2, k0_pay3, shapeCast_self]
  rfl

/-- A coordinate of an edge vector at lane `j`. -/
theorem pay6_apply (a b : Vec Ideal S1x80000 .f32) (j : S1x80000.Idx) : k0_pay6 a b j = b j - a j := by
  simp only [k0_pay6, k0_pay1, k0_pay2, k0_pay3, shapeCast_self]
  rfl

/-- A coordinate of an edge vector at lane `j`. -/
theorem pay7_apply (a b : Vec Ideal S1x80000 .f32) (j : S1x80000.Idx) : k0_pay7 a b j = b j - a j := by
  simp only [k0_pay7, k0_pay1, k0_pay2, k0_pay3, shapeCast_self]
  rfl

/-- A coordinate of an edge vector at lane `j`. -/
theorem pay8_apply (a b : Vec Ideal S1x80000 .f32) (j : S1x80000.Idx) : k0_pay8 a b j = b j - a j := by
  simp only [k0_pay8, k0_pay1, k0_pay2, k0_pay3, shapeCast_self]
  rfl

/-- A coordinate of an edge vector at lane `j`. -/
theorem pay9_apply (a b : Vec Ideal S1x80000 .f32) (j : S1x80000.Idx) : k0_pay9 a b j = b j - a j := by
  simp only [k0_pay9, k0_pay1, k0_pay2, k0_pay3, shapeCast_self]
  rfl

/-- A coordinate of an edge vector at lane `j`. -/
theorem pay10_apply (a b : Vec Ideal S1x80000 .f32) (j : S1x80000.Idx) : k0_pay10 a b j = b j - a j := by
  simp only [k0_pay10, k0_pay1, k0_pay2, k0_pay3, shapeCast_self]
  rfl

/-- A coordinate of an edge vector at lane `j`. -/
theorem pay11_apply (a b : Vec Ideal S1x80000 .f32) (j : S1x80000.Idx) : k0_pay11 a b j = b j - a j := by
  simp only [k0_pay11, k0_pay1, k0_pay2, k0_pay3, shapeCast_self]
  rfl

/-- A coordinate of an edge vector at lane `j`. -/
theorem pay12_apply (a b : Vec Ideal S1x80000 .f32) (j : S1x80000.Idx) : k0_pay12 a b j = b j - a j := by
  simp only [k0_pay12, k0_pay1, k0_pay2, k0_pay3, shapeCast_self]
  rfl

/-- The square of the first coordinate of `a`. -/
theorem pay13_apply (a b : Vec Ideal S1x80000 .f32) (j : S1x80000.Idx) : k0_pay13 a b j = (b j - a j) * (b j - a j) := by
  simp only [k0_pay13, k0_pay4, k0_pay1, shapeCast_self]
  rfl
/-- The square of the second coordinate of `a`. -/
theorem pay14_apply (a b : Vec Ideal S1x80000 .f32) (j : S1x80000.Idx) : k0_pay14 a b j = (b j - a j) * (b j - a j) := by
  simp only [k0_pay14, k0_pay5, k0_pay2, shapeCast_self]
  rfl

/-! ## Squared lengths, dot products, the projection coefficient, the wing and its length -/

/-- `|a|²` from the two squares already formed and the third coordinate. -/
theorem pay15_apply (v26 : FVec Ideal S1x80000 .f32) (v33 : FVec Ideal S1x80000 .f32) (v34 : FVec Ideal S1x80000 .f32) (j : S1x80000.Idx) :
    k0_pay15 v26 v33 v34 j = v33 j + v34 j + v26 j * v26 j := rfl
/-- `a·b`. -/
theorem pay16_apply (v24 : FVec Ideal S1x80000 .f32) (v25 : FVec Ideal S1x80000 .f32) (v26 : FVec Ideal S1x80000 .f32) (v27 : FVec Ideal S1x80000 .f32) (v28 : FVec Ideal S1x80000 .f32) (v29 : FVec Ideal S1x80000 .f32) (j : S1x80000.Idx) :
    k0_pay16 v24 v25 v26 v27 v28 v29 j = dot3 (v24 j) (v25 j) (v26 j) (v27 j) (v28 j) (v29 j) := rfl
/-- The projection coefficient `a·b / (|a|² + ε)`. -/
theorem pay17_apply (v24 : FVec Ideal S1x80000 .f32) (v25 : FVec Ideal S1x80000 .f32) (v26 : FVec Ideal S1x80000 .f32) (v27 : FVec Ideal S1x80000 .f32) (v28 : FVec Ideal S1x80000 .f32) (v29 : FVec Ideal S1x80000 .f32) (v33 : FVec Ideal S1x80000 .f32) (v34 : FVec Ideal S1x80000 .f32) (j : S1x80000.Idx) :
    k0_pay17 v24 v25 v26 v27 v28 v29 v33 v34 j = coef (k0_pay15 v26 v33 v34 j) (k0_pay16 v24 v25 v26 v27 v28 v29 j) := rfl
/-- First coordinate of the wing of `b` over `a`. -/
theorem pay18_apply (v24 : FVec Ideal S1x80000 .f32) (v25 : FVec Ideal S1x80000 .f32) (v26 : FVec Ideal S1x80000 .f32) (v27 : FVec Ideal S1x80000 .f32) (v28 : FVec Ideal S1x80000 .f32) (v29 : FVec Ideal S1x80000 .f32) (v33 : FVec Ideal S1x80000 .f32) (v34 : FVec Ideal S1x80000 .f32) (j : S1x80000.Idx) :
    k0_pay18 v24 v25 v26 v27 v28 v29 v33 v34 j = v27 j - v24 j * k0_pay17 v24 v25 v26 v27 v28 v29 v33 v34 j := rfl
/-- Second coordinate of the wing. -/
theorem pay19_apply (v24 : FVec Ideal S1x80000 .f32) (v25 : FVec Ideal S1x80000 .f32) (v26 : FVec Ideal S1x80000 .f32) (v27 : FVec Ideal S1x80000 .f32) (v28 : FVec Ideal S1x80000 .f32) (v29 : FVec Ideal S1x80000 .f32) (v33 : FVec Ideal S1x80000 .f32) (v34 : FVec Ideal S1x80000 .f32) (j : S1x80000.Idx) :
    k0_pay19 v24 v25 v26 v27 v28 v29 v33 v34 j = v28 j - v25 j * k0_pay17 v24 v25 v26 v27 v28 v29 v33 v34 j := rfl
/-- Third coordinate of the wing. -/
theorem pay20_apply (v24 : FVec Ideal S1x80000 .f32) (v25 : FVec Ideal S1x80000 .f32) (v26 : FVec Ideal S1x80000 .f32) (v27 : FVec Ideal S1x80000 .f32) (v28 : FVec Ideal S1x80000 .f32) (v29 : FVec Ideal S1x80000 .f32) (v33 : FVec Ideal S1x80000 .f32) (v34 : FVec Ideal S1x80000 .f32) (j : S1x80000.Idx) :
    k0_pay20 v24 v25 v26 v27 v28 v29 v33 v34 j = v29 j - v26 j * k0_pay17 v24 v25 v26 v27 v28 v29 v33 v34 j := rfl
/-- The wing's length `|b| · sin`. -/
theorem pay21_apply (v24 : FVec Ideal S1x80000 .f32) (v25 : FVec Ideal S1x80000 .f32) (v26 : FVec Ideal S1x80000 .f32) (v27 : FVec Ideal S1x80000 .f32) (v28 : FVec Ideal S1x80000 .f32) (v29 : FVec Ideal S1x80000 .f32) (v33 : FVec Ideal S1x80000 .f32) (v34 : FVec Ideal S1x80000 .f32) (j : S1x80000.Idx) :
    k0_pay21 v24 v25 v26 v27 v28 v29 v33 v34 j
      = perpLen (k0_pay15 v26 v33 v34 j) (sq3 (v27 j) (v28 j) (v29 j)) (k0_pay16 v24 v25 v26 v27 v28 v29 j) := rfl
/-- `|a|²`, formed again for the second wing. -/
theorem pay22_apply (v24 : FVec Ideal S1x80000 .f32) (v25 : FVec Ideal S1x80000 .f32) (v26 : FVec Ideal S1x80000 .f32) (j : S1x80000.Idx) :
    k0_pay22 v24 v25 v26 j = sq3 (v24 j) (v25 j) (v26 j) := rfl
/-- `|c|²`. -/
theorem pay23_apply (v30 : FVec Ideal S1x80000 .f32) (v31 : FVec Ideal S1x80000 .f32) (v32 : FVec Ideal S1x80000 .f32) (j : S1x80000.Idx) :
    k0_pay23 v30 v31 v32 j = sq3 (v30 j) (v31 j) (v32 j) := rfl
/-- `√(|a|² + ε)`. -/
theorem pay24_apply (v24 : FVec Ideal S1x80000 .f32) (v25 : FVec Ideal S1x80000 .f32) (v26 : FVec Ideal S1x80000 .f32) (j : S1x80000.Idx) :
    k0_pay24 v24 v25 v26 j = Ideal.sqrt (k0_pay22 v24 v25 v26 j + eps) := rfl

/-- The stored cosine from the first wing `(v68, v70, v72)` with length `v73`, `|a|² = v78`, `|c|² = v83`,
    `√(|a|² + ε) = v86`: the second wing is formed here and the two are combined. -/
theorem pay25_apply (v24 : FVec Ideal S1x80000 .f32) (v25 : FVec Ideal S1x80000 .f32) (v26 : FVec Ideal S1x80000 .f32) (v30 : FVec Ideal S1x80000 .f32) (v31 : FVec Ideal S1x80000 .f32) (v32 : FVec Ideal S1x80000 .f32) (v68 : FVec Ideal S1x80000 .f32) (v70 : FVec Ideal S1x80000 .f32) (v72 : FVec Ideal S1x80000 .f32) (v73 : FVec Ideal S1x80000 .f32) (v78 : FVec Ideal S1x80000 .f32) (v83 : FVec Ideal S1x80000 .f32) (v86 : FVec Ideal S1x80000 .f32) (j : S1x80000.Idx) :
    k0_pay25 v24 v25 v26 v30 v31 v32 v68 v70 v72 v73 v78 v83 v86 (Scalar.ofBits .f32 0x358637BD#32) j
      = Ideal.div
          (dot3 (v68 j) (v70 j) (v72 j)
            (v30 j - v24 j * Ideal.div (dot3 (v24 j) (v25 j) (v26 j) (v30 j) (v31 j) (v32 j)) (v78 j + eps))
            (v31 j - v25 j * Ideal.div (dot3 (v24 j) (v25 j) (v26 j) (v30 j) (v31 j) (v32 j)) (v78 j + eps))
            (v32 j - v26 j * Ideal.div (dot3 (v24 j) (v25 j) (v26 j) (v30 j) (v31 j) (v32 j)) (v78 j + eps)))
          (v73 j * (Ideal.sqrt (v83 j + eps)
              * Ideal.sqrt (one - Ideal.div (dot3 (v24 j) (v25 j) (v26 j) (v30 j) (v31 j) (v32 j)) (v86 j * Ideal.sqrt (v83 j + eps) + eps)
                    * Ideal.div (dot3 (v24 j) (v25 j) (v26 j) (v30 j) (v31 j) (v32 j)) (v86 j * Ideal.sqrt (v83 j + eps) + eps) + eps)) + eps) := rfl

/-! ## Put together -/

/-- At every lane the stored cosine is the dihedral cosine of the lane's four points. -/
theorem cosBlk_apply (x0 : Vec Ideal S1x80000 .f32) (x1 : Vec Ideal S1x80000 .f32) (x2 : Vec Ideal S1x80000 .f32) (x3 : Vec Ideal S1x80000 .f32) (x4 : Vec Ideal S1x80000 .f32) (x5 : Vec Ideal S1x80000 .f32) (x6 : Vec Ideal S1x80000 .f32) (x7 : Vec Ideal S1x80000 .f32) (x8 : Vec Ideal S1x80000 .f32) (x9 : Vec Ideal S1x80000 .f32) (x10 : Vec Ideal S1x80000 .f32) (x11 : Vec Ideal S1x80000 .f32) (j : S1x80000.Idx) :
    cosBlk x0 x1 x2 x3 x4 x5 x6 x7 x8 x9 x10 x11 j = cosPts (x0 j) (x1 j) (x2 j) (x3 j) (x4 j) (x5 j) (x6 j) (x7 j) (x8 j) (x9 j) (x10 j) (x11 j) := by
  unfold cosBlk
  rw [pay25_apply]
  simp only [pay24_apply, pay23_apply, pay22_apply, pay21_apply, pay20_apply, pay19_apply, pay18_apply, pay17_apply,
    pay16_apply, pay15_apply, pay14_apply, pay13_apply, pay12_apply, pay11_apply, pay10_apply, pay9_apply, pay8_apply,
    pay7_apply, pay6_apply, pay5_apply, pay4_apply]
  rfl

end Cert.KernelIdeal.Body

end
-- ==== Proof.GatherKernel.lean ====
/-
  A lookup `x[idx]` of a flat table at a column of start indices, read at one position: the table at the
  start index there, read as a signed integer and clamped into the table.
-/
import proofs.«136911_j62929860821311_2_alg».proof.KernelIdeal
import Idealize.ShloMosaic.Lib.ValueIdx

noncomputable section

namespace Cert.KernelIdeal.Lookup

open Idealize.ShloMosaic Idealize.ShloMosaic.ValueIdx Cert.KernelIdeal

variable [Facts₀]

local notation "gd" => gather_S2000000_S6000000x1_S6000000_n_0_n_n_0_1_1

/-- The flat gather at position `y`: the table at the clamped signed start index stored at `(y, 0)`. -/
theorem gather_apply {α : Type} (x : S2000000.Idx → α) (idx : IVec S6000000x1 32) (y : S6000000.Idx) :
    Host.gather gd x idx y
      = x (ix1 ⟨min (idx (ix2 (y 0) (0 : Fin 1))).toInt.toNat (2000000 - 1), by omega⟩) := by
  unfold Host.gather
  congr 1
  funext a
  obtain rfl : a = 0 := Subsingleton.elim _ _
  refine Fin.ext ?_
  show GatherDims.start gd y idx 0 + GatherDims.batchCoord gd y 0 + GatherDims.offCoord gd y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ GatherDims.startIndexMap gd from List.mem_singleton.mpr rfl)]
  have hsi : GatherDims.siIdx gd y ⟨List.idxOf (0 : Fin 1) (GatherDims.startIndexMap gd),
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Cert.KernelIdeal.Lookup

end
-- ==== Proof.LaneRead.lean ====
/-
  One coordinate lane of the looked-up points, read at an edge.  The lane is built from the vertex table by
  cutting out one of its three columns, flattening it, looking it up at the column of wrapped indices and
  laying the result out as one row of all edges.  At edge `e` it holds the table's entry in that column at
  the row the edge's index word selects (wrapped when negative, read signed, clamped into the table).
-/
import proofs.«136911_j62929860821311_2_alg».proof.KernelIdeal
import proofs.«136911_j62929860821311_2_alg».proof.Proof.Spec
import proofs.«136911_j62929860821311_2_alg».proof.Proof.GatherKernel
import Idealize.ShloMosaic.Lib.ValueIdx
import Idealize.ShloMosaic.Lib.ValueLayout
import Idealize.ShloMosaic.Lib.Pipeline.Value

noncomputable section

namespace Cert.KernelIdeal.Lookup

open Idealize.ShloMosaic Idealize.ShloMosaic.ValueIdx Cert.KernelIdeal Cert.Dihedral

variable [Facts₀]

/-- The column of wrapped indices read at `(e, 0)`: the wrapped index word of edge `e`. -/
theorem wrapped_read (I : IVec S6000000 32) (hb : S6000000.BroadcastsInDim S6000000x1 (![0] : Fin 1 → Fin S6000000x1.rank))
    (hb0 : S_.BroadcastsInDim S6000000 (![] : Fin 0 → Fin S6000000.rank)) (e : Fin 6000000) :
    broadcastInDim S6000000x1 ![0] hb
        (select (cmpi .slt I (broadcastInDim S6000000 ![] hb0 (constantI S_ 32 0#32)))
          (addi I (broadcastInDim S6000000 ![] hb0 (constantI S_ 32 2000000#32))) I) (ix2 e (0 : Fin 1))
      = wrap (I (ix1 e)) := by
  rw [broadcastInDim_apply _ hb _ (ix2 e (0 : Fin 1)) (ix1 e) (fun a => match a with
    | ⟨0, _⟩ => by show e.val = if (6000000 : Nat) = 1 then 0 else e.val; rw [if_neg (by decide)])]
  show Scalar.select (IntOp.cmpi .slt (I (ix1 e)) (broadcastInDim S6000000 ![] hb0 (constantI S_ 32 0#32) (ix1 e)))
      (IntOp.addi (I (ix1 e)) (broadcastInDim S6000000 ![] hb0 (constantI S_ 32 2000000#32) (ix1 e))) (I (ix1 e)) = _
  rw [broadcastInDim_apply _ hb0 (constantI S_ 32 0#32) (ix1 e) ix0 (fun a => a.elim0),
    broadcastInDim_apply _ hb0 (constantI S_ 32 2000000#32) (ix1 e) ix0 (fun a => a.elim0)]
  rfl

/-- The flattened column `o` of the table read at row `r`. -/
theorem column_read {α : Type} {o : ℕ} (ho : o < 3) (hs : S2000000x3.Slices ![0, o] S2000000x1)
    (h1 : S2000000x1.ShapeCasts S2000000) (X : S2000000x3.Idx → α) (r : Fin 2000000) :
    shapeCast S2000000 (extractStridedSlice S2000000x1 ![0, o] X hs) h1 (ix1 r) = X (ix2 r ⟨o, ho⟩) := by
  rw [shapeCast_apply _ h1 (ix1 r) (ix2 r (0 : Fin 1)) (by
    rw [Shape.rowMajor_val_two, Shape.rowMajor_val_one]
    show r.val * 1 + 0 = r.val
    omega)]
  exact slice2_axis1_apply o X hs r (0 : Fin 1) ⟨o, ho⟩ (by show o = o + 0; omega)

/-- THE LANE AT AN EDGE: column `o` of the table at the row the edge's index word selects. -/
theorem lane_read {o : ℕ} (ho : o < 3) (hs : S2000000x3.Slices ![0, o] S2000000x1)
    (h1 : S2000000x1.ShapeCasts S2000000) (h2 : S6000000.ShapeCasts S1x6000000)
    (hb : S6000000.BroadcastsInDim S6000000x1 (![0] : Fin 1 → Fin S6000000x1.rank))
    (hb0 : S_.BroadcastsInDim S6000000 (![] : Fin 0 → Fin S6000000.rank))
    (X : S2000000x3.Idx → EReal) (I : IVec S6000000 32) (u : Fin 1) (e : Fin 6000000) :
    shapeCast S1x6000000
        (Host.gather gather_S2000000_S6000000x1_S6000000_n_0_n_n_0_1_1
          (shapeCast S2000000 (extractStridedSlice S2000000x1 ![0, o] X hs) h1)
          (broadcastInDim S6000000x1 ![0] hb
            (select (cmpi .slt I (broadcastInDim S6000000 ![] hb0 (constantI S_ 32 0#32)))
              (addi I (broadcastInDim S6000000 ![] hb0 (constantI S_ 32 2000000#32))) I)))
        h2 (ix2 u e)
      = X (ix2 (row (I (ix1 e))) ⟨o, ho⟩) := by
  rw [shapeCast_a_1a_apply, gather_apply]
  show shapeCast S2000000 (extractStridedSlice S2000000x1 ![0, o] X hs) h1
      (ix1 ⟨min (broadcastInDim S6000000x1 ![0] hb
        (select (cmpi .slt I (broadcastInDim S6000000 ![] hb0 (constantI S_ 32 0#32)))
          (addi I (broadcastInDim S6000000 ![] hb0 (constantI S_ 32 2000000#32))) I) (ix2 e (0 : Fin 1))).toInt.toNat (2000000 - 1), _⟩) = _
  rw [column_read ho hs h1]
  refine congrArg X ?_
  refine congrArg (fun r => ix2 r (⟨o, ho⟩ : Fin 3)) (Fin.ext ?_)
  exact congrArg (fun w : BitVec 32 => min w.toInt.toNat (2000000 - 1)) (wrapped_read I hb hb0 e)

end Cert.KernelIdeal.Lookup

end
-- ==== Proof.Windows0.lean ====
/-
  The three coordinate lanes of the looked-up point p0, as the region finds them: at edge `e` each holds one
  coordinate of the vertex row that the point's index array selects for `e` (wrapped when negative, clamped into the table).
-/
import proofs.«136911_j62929860821311_2_alg».proof.Proof.Gen.KernelIdeal.Frame
import proofs.«136911_j62929860821311_2_alg».proof.Proof.LaneRead
import Idealize.ShloMosaic.Lib.StableHlo.Run

set_option maxRecDepth 16384
set_option maxHeartbeats 4000000

noncomputable section

namespace Cert.KernelIdeal.Val

open Cert.KernelIdeal Cert.KernelIdeal.Gen Idealize.ShloMosaic Idealize.ShloMosaic.ValueIdx Idealize.ShloMosaic.TcCoe
open Idealize.SL.Sem Idealize.ShloMosaic.StableHlo Cert.Dihedral

variable (m : (ℓ : Loc nD τ sig) → Buf (Elt Ideal) ℓ)

/-- Lane 0 at edge `e`: coordinate 0 of the vertex row that index array 0 selects for `e`. -/
theorem lane0_read (c : Dev nD) (u : Fin 1) (e : Fin 6000000) :
    (V m c main_v90 : S1x6000000.Idx → EReal) (ix2 u e)
      = (m ((c : Thread nD τ).loc main_arg0) : S2000000x3.Idx → EReal)
          (ix2 (row ((m ((c : Thread nD τ).loc main_arg1) : S6000000.Idx → BitVec 32) (ix1 e))) (0 : Fin 3)) := by
  show StableHlo.after hostOps0 (fun b => m (c, b)) (Proc.devRef .tc main_v90) (ix2 u e) = _
  after_results_simp
  exact Lookup.lane_read (o := 0) (by decide) _ _ _ _ _ _ _ u e

/-- Lane 1 at edge `e`: coordinate 1 of the vertex row that index array 0 selects for `e`. -/
theorem lane1_read (c : Dev nD) (u : Fin 1) (e : Fin 6000000) :
    (V m c main_v91 : S1x6000000.Idx → EReal) (ix2 u e)
      = (m ((c : Thread nD τ).loc main_arg0) : S2000000x3.Idx → EReal)
          (ix2 (row ((m ((c : Thread nD τ).loc main_arg1) : S6000000.Idx → BitVec 32) (ix1 e))) (1 : Fin 3)) := by
  show StableHlo.after hostOps0 (fun b => m (c, b)) (Proc.devRef .tc main_v91) (ix2 u e) = _
  after_results_simp
  exact Lookup.lane_read (o := 1) (by decide) _ _ _ _ _ _ _ u e

/-- Lane 2 at edge `e`: coordinate 2 of the vertex row that index array 0 selects for `e`. -/
theorem lane2_read (c : Dev nD) (u : Fin 1) (e : Fin 6000000) :
    (V m c main_v92 : S1x6000000.Idx → EReal) (ix2 u e)
      = (m ((c : Thread nD τ).loc main_arg0) : S2000000x3.Idx → EReal)
          (ix2 (row ((m ((c : Thread nD τ).loc main_arg1) : S6000000.Idx → BitVec 32) (ix1 e))) (2 : Fin 3)) := by
  show StableHlo.after hostOps0 (fun b => m (c, b)) (Proc.devRef .tc main_v92) (ix2 u e) = _
  after_results_simp
  exact Lookup.lane_read (o := 2) (by decide) _ _ _ _ _ _ _ u e

end Cert.KernelIdeal.Val

end
-- ==== Proof.Windows1.lean ====
/-
  The three coordinate lanes of the looked-up point p1, as the region finds them: at edge `e` each holds one
  coordinate of the vertex row that the point's index array selects for `e` (wrapped when negative, clamped into the table).
-/
import proofs.«136911_j62929860821311_2_alg».proof.Proof.Gen.KernelIdeal.Frame
import proofs.«136911_j62929860821311_2_alg».proof.Proof.LaneRead
import Idealize.ShloMosaic.Lib.StableHlo.Run

set_option maxRecDepth 16384
set_option maxHeartbeats 4000000

noncomputable section

namespace Cert.KernelIdeal.Val

open Cert.KernelIdeal Cert.KernelIdeal.Gen Idealize.ShloMosaic Idealize.ShloMosaic.ValueIdx Idealize.ShloMosaic.TcCoe
open Idealize.SL.Sem Idealize.ShloMosaic.StableHlo Cert.Dihedral

variable (m : (ℓ : Loc nD τ sig) → Buf (Elt Ideal) ℓ)

/-- Lane 3 at edge `e`: coordinate 0 of the vertex row that index array 1 selects for `e`. -/
theorem lane3_read (c : Dev nD) (u : Fin 1) (e : Fin 6000000) :
    (V m c main_v93 : S1x6000000.Idx → EReal) (ix2 u e)
      = (m ((c : Thread nD τ).loc main_arg0) : S2000000x3.Idx → EReal)
          (ix2 (row ((m ((c : Thread nD τ).loc main_arg2) : S6000000.Idx → BitVec 32) (ix1 e))) (0 : Fin 3)) := by
  show StableHlo.after hostOps0 (fun b => m (c, b)) (Proc.devRef .tc main_v93) (ix2 u e) = _
  after_results_simp
  exact Lookup.lane_read (o := 0) (by decide) _ _ _ _ _ _ _ u e

/-- Lane 4 at edge `e`: coordinate 1 of the vertex row that index array 1 selects for `e`. -/
theorem lane4_read (c : Dev nD) (u : Fin 1) (e : Fin 6000000) :
    (V m c main_v94 : S1x6000000.Idx → EReal) (ix2 u e)
      = (m ((c : Thread nD τ).loc main_arg0) : S2000000x3.Idx → EReal)
          (ix2 (row ((m ((c : Thread nD τ).loc main_arg2) : S6000000.Idx → BitVec 32) (ix1 e))) (1 : Fin 3)) := by
  show StableHlo.after hostOps0 (fun b => m (c, b)) (Proc.devRef .tc main_v94) (ix2 u e) = _
  after_results_simp
  exact Lookup.lane_read (o := 1) (by decide) _ _ _ _ _ _ _ u e

/-- Lane 5 at edge `e`: coordinate 2 of the vertex row that index array 1 selects for `e`. -/
theorem lane5_read (c : Dev nD) (u : Fin 1) (e : Fin 6000000) :
    (V m c main_v95 : S1x6000000.Idx → EReal) (ix2 u e)
      = (m ((c : Thread nD τ).loc main_arg0) : S2000000x3.Idx → EReal)
          (ix2 (row ((m ((c : Thread nD τ).loc main_arg2) : S6000000.Idx → BitVec 32) (ix1 e))) (2 : Fin 3)) := by
  show StableHlo.after hostOps0 (fun b => m (c, b)) (Proc.devRef .tc main_v95) (ix2 u e) = _
  after_results_simp
  exact Lookup.lane_read (o := 2) (by decide) _ _ _ _ _ _ _ u e

end Cert.KernelIdeal.Val

end
-- ==== Proof.Windows2.lean ====
/-
  The three coordinate lanes of the looked-up point p2, as the region finds them: at edge `e` each holds one
  coordinate of the vertex row that the point's index array selects for `e` (wrapped when negative, clamped into the table).
-/
import proofs.«136911_j62929860821311_2_alg».proof.Proof.Gen.KernelIdeal.Frame
import proofs.«136911_j62929860821311_2_alg».proof.Proof.LaneRead
import Idealize.ShloMosaic.Lib.StableHlo.Run

set_option maxRecDepth 16384
set_option maxHeartbeats 4000000

noncomputable section

namespace Cert.KernelIdeal.Val

open Cert.KernelIdeal Cert.KernelIdeal.Gen Idealize.ShloMosaic Idealize.ShloMosaic.ValueIdx Idealize.ShloMosaic.TcCoe
open Idealize.SL.Sem Idealize.ShloMosaic.StableHlo Cert.Dihedral

variable (m : (ℓ : Loc nD τ sig) → Buf (Elt Ideal) ℓ)

/-- Lane 6 at edge `e`: coordinate 0 of the vertex row that index array 2 selects for `e`. -/
theorem lane6_read (c : Dev nD) (u : Fin 1) (e : Fin 6000000) :
    (V m c main_v96 : S1x6000000.Idx → EReal) (ix2 u e)
      = (m ((c : Thread nD τ).loc main_arg0) : S2000000x3.Idx → EReal)
          (ix2 (row ((m ((c : Thread nD τ).loc main_arg3) : S6000000.Idx → BitVec 32) (ix1 e))) (0 : Fin 3)) := by
  show StableHlo.after hostOps0 (fun b => m (c, b)) (Proc.devRef .tc main_v96) (ix2 u e) = _
  after_results_simp
  exact Lookup.lane_read (o := 0) (by decide) _ _ _ _ _ _ _ u e

/-- Lane 7 at edge `e`: coordinate 1 of the vertex row that index array 2 selects for `e`. -/
theorem lane7_read (c : Dev nD) (u : Fin 1) (e : Fin 6000000) :
    (V m c main_v97 : S1x6000000.Idx → EReal) (ix2 u e)
      = (m ((c : Thread nD τ).loc main_arg0) : S2000000x3.Idx → EReal)
          (ix2 (row ((m ((c : Thread nD τ).loc main_arg3) : S6000000.Idx → BitVec 32) (ix1 e))) (1 : Fin 3)) := by
  show StableHlo.after hostOps0 (fun b => m (c, b)) (Proc.devRef .tc main_v97) (ix2 u e) = _
  after_results_simp
  exact Lookup.lane_read (o := 1) (by decide) _ _ _ _ _ _ _ u e

/-- Lane 8 at edge `e`: coordinate 2 of the vertex row that index array 2 selects for `e`. -/
theorem lane8_read (c : Dev nD) (u : Fin 1) (e : Fin 6000000) :
    (V m c main_v98 : S1x6000000.Idx → EReal) (ix2 u e)
      = (m ((c : Thread nD τ).loc main_arg0) : S2000000x3.Idx → EReal)
          (ix2 (row ((m ((c : Thread nD τ).loc main_arg3) : S6000000.Idx → BitVec 32) (ix1 e))) (2 : Fin 3)) := by
  show StableHlo.after hostOps0 (fun b => m (c, b)) (Proc.devRef .tc main_v98) (ix2 u e) = _
  after_results_simp
  exact Lookup.lane_read (o := 2) (by decide) _ _ _ _ _ _ _ u e

end Cert.KernelIdeal.Val

end
-- ==== Proof.Windows3.lean ====
/-
  The three coordinate lanes of the looked-up point p3, as the region finds them: at edge `e` each holds one
  coordinate of the vertex row that the point's index array selects for `e` (wrapped when negative, clamped into the table).
-/
import proofs.«136911_j62929860821311_2_alg».proof.Proof.Gen.KernelIdeal.Frame
import proofs.«136911_j62929860821311_2_alg».proof.Proof.LaneRead
import Idealize.ShloMosaic.Lib.StableHlo.Run

set_option maxRecDepth 16384
set_option maxHeartbeats 4000000

noncomputable section

namespace Cert.KernelIdeal.Val

open Cert.KernelIdeal Cert.KernelIdeal.Gen Idealize.ShloMosaic Idealize.ShloMosaic.ValueIdx Idealize.ShloMosaic.TcCoe
open Idealize.SL.Sem Idealize.ShloMosaic.StableHlo Cert.Dihedral

variable (m : (ℓ : Loc nD τ sig) → Buf (Elt Ideal) ℓ)

/-- Lane 9 at edge `e`: coordinate 0 of the vertex row that index array 3 selects for `e`. -/
theorem lane9_read (c : Dev nD) (u : Fin 1) (e : Fin 6000000) :
    (V m c main_v99 : S1x6000000.Idx → EReal) (ix2 u e)
      = (m ((c : Thread nD τ).loc main_arg0) : S2000000x3.Idx → EReal)
          (ix2 (row ((m ((c : Thread nD τ).loc main_arg4) : S6000000.Idx → BitVec 32) (ix1 e))) (0 : Fin 3)) := by
  show StableHlo.after hostOps0 (fun b => m (c, b)) (Proc.devRef .tc main_v99) (ix2 u e) = _
  after_results_simp
  exact Lookup.lane_read (o := 0) (by decide) _ _ _ _ _ _ _ u e

/-- Lane 10 at edge `e`: coordinate 1 of the vertex row that index array 3 selects for `e`. -/
theorem lane10_read (c : Dev nD) (u : Fin 1) (e : Fin 6000000) :
    (V m c main_v100 : S1x6000000.Idx → EReal) (ix2 u e)
      = (m ((c : Thread nD τ).loc main_arg0) : S2000000x3.Idx → EReal)
          (ix2 (row ((m ((c : Thread nD τ).loc main_arg4) : S6000000.Idx → BitVec 32) (ix1 e))) (1 : Fin 3)) := by
  show StableHlo.after hostOps0 (fun b => m (c, b)) (Proc.devRef .tc main_v100) (ix2 u e) = _
  after_results_simp
  exact Lookup.lane_read (o := 1) (by decide) _ _ _ _ _ _ _ u e

/-- Lane 11 at edge `e`: coordinate 2 of the vertex row that index array 3 selects for `e`. -/
theorem lane11_read (c : Dev nD) (u : Fin 1) (e : Fin 6000000) :
    (V m c main_v101 : S1x6000000.Idx → EReal) (ix2 u e)
      = (m ((c : Thread nD τ).loc main_arg0) : S2000000x3.Idx → EReal)
          (ix2 (row ((m ((c : Thread nD τ).loc main_arg4) : S6000000.Idx → BitVec 32) (ix1 e))) (2 : Fin 3)) := by
  show StableHlo.after hostOps0 (fun b => m (c, b)) (Proc.devRef .tc main_v101) (ix2 u e) = _
  after_results_simp
  exact Lookup.lane_read (o := 2) (by decide) _ _ _ _ _ _ _ u e

end Cert.KernelIdeal.Val

end
-- ==== Proof.Windows.lean ====
/-
  The twelve coordinate lanes (x, y, z of the four looked-up points) as the region finds them, gathered in one place.
-/
import proofs.«136911_j62929860821311_2_alg».proof.Proof.Windows0
import proofs.«136911_j62929860821311_2_alg».proof.Proof.Windows1
import proofs.«136911_j62929860821311_2_alg».proof.Proof.Windows2
import proofs.«136911_j62929860821311_2_alg».proof.Proof.Windows3
-- ==== Proof.BlockReads.lean ====
/-
  The twelve coordinate blocks read at one lane.

  The edges are cut into 75 consecutive blocks of 80000.  At grid point `t` every input window holds block `t`
  of its lane array: position `(u, l)` of the block is position `(u, t·80000 + l)` of the array, because a
  block's coordinate on an axis is the block index times the block size plus the coordinate inside the block,
  and the index maps send `t` to block `(0, t)`.  So lane `l` of the block of window `w` is the coordinate
  `w mod 3` of point `w div 3` of the edge `t·80000 + l`.
-/
import proofs.«136911_j62929860821311_2_alg».proof.Proof.Gen.KernelIdeal.Frame
import proofs.«136911_j62929860821311_2_alg».proof.Proof.Spec
import proofs.«136911_j62929860821311_2_alg».proof.Proof.LossRegroup
import proofs.«136911_j62929860821311_2_alg».proof.Proof.Windows
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.ShloMosaic.TcCoe
  Idealize.SL.Sem Cert.Dihedral
open Idealize.ShloMosaic.Pipeline (Dat)

variable (m : (ℓ : Loc nD τ sig) → Buf (Elt Ideal) ℓ)

/-- The edge in lane `l` of the block of grid point `t`. -/
def edge (t : Fin cfg0.N) (l : Fin 80000) : Fin 6000000 :=
  ⟨t.val * 80000 + l.val, by have h := t.isLt; have hN : cfg0.N = 75 := N_0; have hl := l.isLt; omega⟩

/-- It is the edge of block `s`, lane `l` whenever `s` and `t` are the same number. -/
theorem edgeOf_eq_edge (s : Fin 75) (t : Fin cfg0.N) (h : s.val = t.val) (l : Fin 80000) : edgeOf s l = edge t l :=
  Fin.ext (by show s.val * 80000 + l.val = t.val * 80000 + l.val; rw [h])

/-- The zero offsets of a rank-2 block, however they are spelt. -/
theorem zeros2 : (![0, 0] : Fin 2 → Nat) = fun _ => 0 := funext fun a => by fin_cases a <;> rfl

/-- The index maps, decided once over the 75 grid points: every `[1, 80000]` window (the twelve inputs and the
    cosine output) is at block `(0, t)`, and the `[1, 1, 1]` window of the partial sums at block `(t, 0, 0)`. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val
    ∧ win0_9.index t (0 : Fin 2) = 0 ∧ win0_9.index t (1 : Fin 2) = t.val
    ∧ win0_10.index t (0 : Fin 2) = 0 ∧ win0_10.index t (1 : Fin 2) = t.val
    ∧ win0_11.index t (0 : Fin 2) = 0 ∧ win0_11.index t (1 : Fin 2) = t.val
    ∧ win0_12.index t (0 : Fin 2) = 0 ∧ win0_12.index t (1 : Fin 2) = t.val
    ∧ win0_13.index t (0 : Fin 3) = t.val ∧ win0_13.index t (1 : Fin 3) = 0 ∧ win0_13.index t (2 : Fin 3) = 0 :=
  (by decide +kernel : ∀ t : Fin grid0.N, _)

/-- The cosine output's block at point `t` is block `(0, t)`. -/
theorem index_cos (t : Fin cfg0.N) : win0_12.index t (0 : Fin 2) = 0 ∧ win0_12.index t (1 : Fin 2) = t.val := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  exact ⟨h12a, h12b⟩

/-- The partial-sum output's block at point `t` is block `(t, 0, 0)`. -/
theorem index_sum (t : Fin cfg0.N) :
    win0_13.index t (0 : Fin 3) = t.val ∧ win0_13.index t (1 : Fin 3) = 0 ∧ win0_13.index t (2 : Fin 3) = 0 := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  exact ⟨h13a, h13b, h13c⟩

/-- Lane `l` of window 0's block at point `t`: the first coordinate of point 0 of the edge `t·80000 + l`. -/
theorem iblk0_read (c : Dev nD) (t : Fin cfg0.N) (u : Fin 1) (l : Fin 80000) :
    (iblk m c 0 t : S1x80000.Idx → EReal) (ix2 u l)
      = (m ((c : Thread nD τ).loc main_arg0) : S2000000x3.Idx → EReal)
          (ix2 (row ((m ((c : Thread nD τ).loc main_arg1) : S6000000.Idx → BitVec 32) (ix1 (edge t l)))) (0 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 0).blk t).view.emb (ix2 u l) = (ix2 u (edge t l) : S1x6000000.Idx) := by
    funext a; apply Fin.ext
    match a with
    | ⟨0, _⟩ => show win0_0.index t (0 : Fin 2) * 1 + 1 * u.val = u.val; omega
    | ⟨1, _⟩ => show win0_0.index t (1 : Fin 2) * 80000 + 1 * l.val = t.val * 80000 + l.val; omega
  unfold iblk
  rw [View.read_apply]
  exact (congrArg (V m c main_v90 : S1x6000000.Idx → EReal) hidx).trans (lane0_read m c u (edge t l))

/-- Lane `l` of window 1's block at point `t`: the second coordinate of point 0 of the edge `t·80000 + l`. -/
theorem iblk1_read (c : Dev nD) (t : Fin cfg0.N) (u : Fin 1) (l : Fin 80000) :
    (iblk m c 1 t : S1x80000.Idx → EReal) (ix2 u l)
      = (m ((c : Thread nD τ).loc main_arg0) : S2000000x3.Idx → EReal)
          (ix2 (row ((m ((c : Thread nD τ).loc main_arg1) : S6000000.Idx → BitVec 32) (ix1 (edge t l)))) (1 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 1).blk t).view.emb (ix2 u l) = (ix2 u (edge t l) : S1x6000000.Idx) := by
    funext a; apply Fin.ext
    match a with
    | ⟨0, _⟩ => show win0_1.index t (0 : Fin 2) * 1 + 1 * u.val = u.val; omega
    | ⟨1, _⟩ => show win0_1.index t (1 : Fin 2) * 80000 + 1 * l.val = t.val * 80000 + l.val; omega
  unfold iblk
  rw [View.read_apply]
  exact (congrArg (V m c main_v91 : S1x6000000.Idx → EReal) hidx).trans (lane1_read m c u (edge t l))

/-- Lane `l` of window 2's block at point `t`: the third coordinate of point 0 of the edge `t·80000 + l`. -/
theorem iblk2_read (c : Dev nD) (t : Fin cfg0.N) (u : Fin 1) (l : Fin 80000) :
    (iblk m c 2 t : S1x80000.Idx → EReal) (ix2 u l)
      = (m ((c : Thread nD τ).loc main_arg0) : S2000000x3.Idx → EReal)
          (ix2 (row ((m ((c : Thread nD τ).loc main_arg1) : S6000000.Idx → BitVec 32) (ix1 (edge t l)))) (2 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 2).blk t).view.emb (ix2 u l) = (ix2 u (edge t l) : S1x6000000.Idx) := by
    funext a; apply Fin.ext
    match a with
    | ⟨0, _⟩ => show win0_2.index t (0 : Fin 2) * 1 + 1 * u.val = u.val; omega
    | ⟨1, _⟩ => show win0_2.index t (1 : Fin 2) * 80000 + 1 * l.val = t.val * 80000 + l.val; omega
  unfold iblk
  rw [View.read_apply]
  exact (congrArg (V m c main_v92 : S1x6000000.Idx → EReal) hidx).trans (lane2_read m c u (edge t l))

/-- Lane `l` of window 3's block at point `t`: the first coordinate of point 1 of the edge `t·80000 + l`. -/
theorem iblk3_read (c : Dev nD) (t : Fin cfg0.N) (u : Fin 1) (l : Fin 80000) :
    (iblk m c 3 t : S1x80000.Idx → EReal) (ix2 u l)
      = (m ((c : Thread nD τ).loc main_arg0) : S2000000x3.Idx → EReal)
          (ix2 (row ((m ((c : Thread nD τ).loc main_arg2) : S6000000.Idx → BitVec 32) (ix1 (edge t l)))) (0 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 3).blk t).view.emb (ix2 u l) = (ix2 u (edge t l) : S1x6000000.Idx) := by
    funext a; apply Fin.ext
    match a with
    | ⟨0, _⟩ => show win0_3.index t (0 : Fin 2) * 1 + 1 * u.val = u.val; omega
    | ⟨1, _⟩ => show win0_3.index t (1 : Fin 2) * 80000 + 1 * l.val = t.val * 80000 + l.val; omega
  unfold iblk
  rw [View.read_apply]
  exact (congrArg (V m c main_v93 : S1x6000000.Idx → EReal) hidx).trans (lane3_read m c u (edge t l))

/-- Lane `l` of window 4's block at point `t`: the second coordinate of point 1 of the edge `t·80000 + l`. -/
theorem iblk4_read (c : Dev nD) (t : Fin cfg0.N) (u : Fin 1) (l : Fin 80000) :
    (iblk m c 4 t : S1x80000.Idx → EReal) (ix2 u l)
      = (m ((c : Thread nD τ).loc main_arg0) : S2000000x3.Idx → EReal)
          (ix2 (row ((m ((c : Thread nD τ).loc main_arg2) : S6000000.Idx → BitVec 32) (ix1 (edge t l)))) (1 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 4).blk t).view.emb (ix2 u l) = (ix2 u (edge t l) : S1x6000000.Idx) := by
    funext a; apply Fin.ext
    match a with
    | ⟨0, _⟩ => show win0_4.index t (0 : Fin 2) * 1 + 1 * u.val = u.val; omega
    | ⟨1, _⟩ => show win0_4.index t (1 : Fin 2) * 80000 + 1 * l.val = t.val * 80000 + l.val; omega
  unfold iblk
  rw [View.read_apply]
  exact (congrArg (V m c main_v94 : S1x6000000.Idx → EReal) hidx).trans (lane4_read m c u (edge t l))

/-- Lane `l` of window 5's block at point `t`: the third coordinate of point 1 of the edge `t·80000 + l`. -/
theorem iblk5_read (c : Dev nD) (t : Fin cfg0.N) (u : Fin 1) (l : Fin 80000) :
    (iblk m c 5 t : S1x80000.Idx → EReal) (ix2 u l)
      = (m ((c : Thread nD τ).loc main_arg0) : S2000000x3.Idx → EReal)
          (ix2 (row ((m ((c : Thread nD τ).loc main_arg2) : S6000000.Idx → BitVec 32) (ix1 (edge t l)))) (2 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 5).blk t).view.emb (ix2 u l) = (ix2 u (edge t l) : S1x6000000.Idx) := by
    funext a; apply Fin.ext
    match a with
    | ⟨0, _⟩ => show win0_5.index t (0 : Fin 2) * 1 + 1 * u.val = u.val; omega
    | ⟨1, _⟩ => show win0_5.index t (1 : Fin 2) * 80000 + 1 * l.val = t.val * 80000 + l.val; omega
  unfold iblk
  rw [View.read_apply]
  exact (congrArg (V m c main_v95 : S1x6000000.Idx → EReal) hidx).trans (lane5_read m c u (edge t l))

/-- Lane `l` of window 6's block at point `t`: the first coordinate of point 2 of the edge `t·80000 + l`. -/
theorem iblk6_read (c : Dev nD) (t : Fin cfg0.N) (u : Fin 1) (l : Fin 80000) :
    (iblk m c 6 t : S1x80000.Idx → EReal) (ix2 u l)
      = (m ((c : Thread nD τ).loc main_arg0) : S2000000x3.Idx → EReal)
          (ix2 (row ((m ((c : Thread nD τ).loc main_arg3) : S6000000.Idx → BitVec 32) (ix1 (edge t l)))) (0 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 6).blk t).view.emb (ix2 u l) = (ix2 u (edge t l) : S1x6000000.Idx) := by
    funext a; apply Fin.ext
    match a with
    | ⟨0, _⟩ => show win0_6.index t (0 : Fin 2) * 1 + 1 * u.val = u.val; omega
    | ⟨1, _⟩ => show win0_6.index t (1 : Fin 2) * 80000 + 1 * l.val = t.val * 80000 + l.val; omega
  unfold iblk
  rw [View.read_apply]
  exact (congrArg (V m c main_v96 : S1x6000000.Idx → EReal) hidx).trans (lane6_read m c u (edge t l))

/-- Lane `l` of window 7's block at point `t`: the second coordinate of point 2 of the edge `t·80000 + l`. -/
theorem iblk7_read (c : Dev nD) (t : Fin cfg0.N) (u : Fin 1) (l : Fin 80000) :
    (iblk m c 7 t : S1x80000.Idx → EReal) (ix2 u l)
      = (m ((c : Thread nD τ).loc main_arg0) : S2000000x3.Idx → EReal)
          (ix2 (row ((m ((c : Thread nD τ).loc main_arg3) : S6000000.Idx → BitVec 32) (ix1 (edge t l)))) (1 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 7).blk t).view.emb (ix2 u l) = (ix2 u (edge t l) : S1x6000000.Idx) := by
    funext a; apply Fin.ext
    match a with
    | ⟨0, _⟩ => show win0_7.index t (0 : Fin 2) * 1 + 1 * u.val = u.val; omega
    | ⟨1, _⟩ => show win0_7.index t (1 : Fin 2) * 80000 + 1 * l.val = t.val * 80000 + l.val; omega
  unfold iblk
  rw [View.read_apply]
  exact (congrArg (V m c main_v97 : S1x6000000.Idx → EReal) hidx).trans (lane7_read m c u (edge t l))

/-- Lane `l` of window 8's block at point `t`: the third coordinate of point 2 of the edge `t·80000 + l`. -/
theorem iblk8_read (c : Dev nD) (t : Fin cfg0.N) (u : Fin 1) (l : Fin 80000) :
    (iblk m c 8 t : S1x80000.Idx → EReal) (ix2 u l)
      = (m ((c : Thread nD τ).loc main_arg0) : S2000000x3.Idx → EReal)
          (ix2 (row ((m ((c : Thread nD τ).loc main_arg3) : S6000000.Idx → BitVec 32) (ix1 (edge t l)))) (2 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 8).blk t).view.emb (ix2 u l) = (ix2 u (edge t l) : S1x6000000.Idx) := by
    funext a; apply Fin.ext
    match a with
    | ⟨0, _⟩ => show win0_8.index t (0 : Fin 2) * 1 + 1 * u.val = u.val; omega
    | ⟨1, _⟩ => show win0_8.index t (1 : Fin 2) * 80000 + 1 * l.val = t.val * 80000 + l.val; omega
  unfold iblk
  rw [View.read_apply]
  exact (congrArg (V m c main_v98 : S1x6000000.Idx → EReal) hidx).trans (lane8_read m c u (edge t l))

/-- Lane `l` of window 9's block at point `t`: the first coordinate of point 3 of the edge `t·80000 + l`. -/
theorem iblk9_read (c : Dev nD) (t : Fin cfg0.N) (u : Fin 1) (l : Fin 80000) :
    (iblk m c 9 t : S1x80000.Idx → EReal) (ix2 u l)
      = (m ((c : Thread nD τ).loc main_arg0) : S2000000x3.Idx → EReal)
          (ix2 (row ((m ((c : Thread nD τ).loc main_arg4) : S6000000.Idx → BitVec 32) (ix1 (edge t l)))) (0 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 9).blk t).view.emb (ix2 u l) = (ix2 u (edge t l) : S1x6000000.Idx) := by
    funext a; apply Fin.ext
    match a with
    | ⟨0, _⟩ => show win0_9.index t (0 : Fin 2) * 1 + 1 * u.val = u.val; omega
    | ⟨1, _⟩ => show win0_9.index t (1 : Fin 2) * 80000 + 1 * l.val = t.val * 80000 + l.val; omega
  unfold iblk
  rw [View.read_apply]
  exact (congrArg (V m c main_v99 : S1x6000000.Idx → EReal) hidx).trans (lane9_read m c u (edge t l))

/-- Lane `l` of window 10's block at point `t`: the second coordinate of point 3 of the edge `t·80000 + l`. -/
theorem iblk10_read (c : Dev nD) (t : Fin cfg0.N) (u : Fin 1) (l : Fin 80000) :
    (iblk m c 10 t : S1x80000.Idx → EReal) (ix2 u l)
      = (m ((c : Thread nD τ).loc main_arg0) : S2000000x3.Idx → EReal)
          (ix2 (row ((m ((c : Thread nD τ).loc main_arg4) : S6000000.Idx → BitVec 32) (ix1 (edge t l)))) (1 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 10).blk t).view.emb (ix2 u l) = (ix2 u (edge t l) : S1x6000000.Idx) := by
    funext a; apply Fin.ext
    match a with
    | ⟨0, _⟩ => show win0_10.index t (0 : Fin 2) * 1 + 1 * u.val = u.val; omega
    | ⟨1, _⟩ => show win0_10.index t (1 : Fin 2) * 80000 + 1 * l.val = t.val * 80000 + l.val; omega
  unfold iblk
  rw [View.read_apply]
  exact (congrArg (V m c main_v100 : S1x6000000.Idx → EReal) hidx).trans (lane10_read m c u (edge t l))

/-- Lane `l` of window 11's block at point `t`: the third coordinate of point 3 of the edge `t·80000 + l`. -/
theorem iblk11_read (c : Dev nD) (t : Fin cfg0.N) (u : Fin 1) (l : Fin 80000) :
    (iblk m c 11 t : S1x80000.Idx → EReal) (ix2 u l)
      = (m ((c : Thread nD τ).loc main_arg0) : S2000000x3.Idx → EReal)
          (ix2 (row ((m ((c : Thread nD τ).loc main_arg4) : S6000000.Idx → BitVec 32) (ix1 (edge t l)))) (2 : Fin 3)) := by
  obtain ⟨h0a, h0b, h1a, h1b, h2a, h2b, h3a, h3b, h4a, h4b, h5a, h5b, h6a, h6b, h7a, h7b, h8a, h8b, h9a, h9b, h10a, h10b, h11a, h11b, h12a, h12b, h13a, h13b, h13c⟩ := index_facts t
  have hidx : ((cfg0.win 11).blk t).view.emb (ix2 u l) = (ix2 u (edge t l) : S1x6000000.Idx) := by
    funext a; apply Fin.ext
    match a with
    | ⟨0, _⟩ => show win0_11.index t (0 : Fin 2) * 1 + 1 * u.val = u.val; omega
    | ⟨1, _⟩ => show win0_11.index t (1 : Fin 2) * 80000 + 1 * l.val = t.val * 80000 + l.val; omega
  unfold iblk
  rw [View.read_apply]
  exact (congrArg (V m c main_v101 : S1x6000000.Idx → EReal) hidx).trans (lane11_read m c u (edge t l))

end Cert.KernelIdeal.Val

end
-- ==== Proof.BlockCos.lean ====
/-
  The array of cosines the kernel leaves.

  At grid point `t` the body stores, at every lane `l` of its block, the dihedral cosine of the four points whose
  coordinates the twelve input blocks hold at that lane — the four points of the edge `t·80000 + l`.  The point
  writes that block back as block `(0, t)` of the output, which is therefore block `t` of the array of all the
  cosines.  Every edge `e` lies in the block of point `e div 80000`, so the 75 blocks cover the array and it ends
  holding the cosine of every edge.
-/
import proofs.«136911_j62929860821311_2_alg».proof.Proof.Gen.KernelIdeal.Frame
import proofs.«136911_j62929860821311_2_alg».proof.Proof.Spec
import proofs.«136911_j62929860821311_2_alg».proof.Proof.BodyCos
import proofs.«136911_j62929860821311_2_alg».proof.Proof.Windows
import proofs.«136911_j62929860821311_2_alg».proof.Proof.BlockReads
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.ShloMosaic.TcCoe
  Idealize.SL.Sem Cert.Dihedral
open Idealize.ShloMosaic.Pipeline (Dat)

variable (m : (ℓ : Loc nD τ sig) → Buf (Elt Ideal) ℓ)

/-- WHAT POINT `t` WRITES BACK to the cosine output is block `t` of the array of all the cosines. -/
theorem flushed_cos (c : Dev nD) (t : Fin cfg0.N) :
    (dats m 0 c).flushed 12 t = ((cfg0.win 12).blk t).view.read (Elt Ideal)
      (cosArr (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32)) := by
  show (cfg0.win 12).cut (grid0.coords t) ((dats m 0 c).after 12 t) = _
  rw [after0_12]
  unfold out0_12
  rw [View.canon_unit_zero zeros2]
  simp only [View.ld_unit_zero (S := S1x80000) zeros2]
  funext j
  obtain ⟨u, l, rfl⟩ : ∃ (u : Fin 1) (l : Fin 80000), j = ix2 u l := ⟨j 0, j 1, eq_ix2 (n0 := 1) (n1 := 80000) j⟩
  show Body.cosBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 u l)
    = cosArr (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32)
        (((cfg0.win 12).blk t).view.emb (ix2 u l))
  refine (Body.cosBlk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 u l)).trans ?_
  rw [iblk0_read m c t u l, iblk1_read m c t u l, iblk2_read m c t u l, iblk3_read m c t u l, iblk4_read m c t u l, iblk5_read m c t u l, iblk6_read m c t u l, iblk7_read m c t u l, iblk8_read m c t u l, iblk9_read m c t u l, iblk10_read m c t u l, iblk11_read m c t u l]
  obtain ⟨ha, hb⟩ := index_cos t
  have hidx : ((cfg0.win 12).blk t).view.emb (ix2 u l) = (ix2 u (edge t l) : S1x6000000.Idx) := by
    funext a; apply Fin.ext
    match a with
    | ⟨0, _⟩ => show win0_12.index t (0 : Fin 2) * 1 + 1 * u.val = u.val; omega
    | ⟨1, _⟩ => show win0_12.index t (1 : Fin 2) * 80000 + 1 * l.val = t.val * 80000 + l.val; omega
  exact (congrArg (cosArr (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32)) hidx).symm

/-- An index of the output is in point `t`'s block iff each coordinate is in the block's range on its axis. -/
theorem mem_blk_cos (t : Fin cfg0.N) (i : S1x6000000.Idx) :
    i ∈ ((cfg0.win 12).blk t).view.set ↔ ∀ a : Fin 2, win0_12.index t a * S1x80000.size a ≤ (i a).val
      ∧ (i a).val < win0_12.index t a * S1x80000.size a + S1x80000.size a := by
  show i ∈ ((View.whole main_v102_0).slice (win0_12.rect t)).set ↔ _
  rw [View.set_slice_whole, Rect.mem_set_unit]
  exact Iff.rfl

/-- THE COVER: position `(0, e)` of the output lies in the block of the point `e div 80000`. -/
theorem cover_cos (i : S1x6000000.Idx) :
    ∃ t : Fin cfg0.N, (cfg0.win 12).flush t = true ∧ i ∈ ((cfg0.win 12).blk t).view.set := by
  have hN : cfg0.N = 75 := N_0
  have hi0 : (i 0).val < 1 := (i 0).isLt
  have hi1 : (i 1).val < 6000000 := (i 1).isLt
  obtain ⟨t, ht⟩ : ∃ t : Fin cfg0.N, t.val = (i 1).val / 80000 := ⟨⟨(i 1).val / 80000, by omega⟩, rfl⟩
  refine ⟨t, flush0_12 t, ?_⟩
  rw [mem_blk_cos]
  obtain ⟨ha, hb⟩ := index_cos t
  intro a
  match a with
  | ⟨0, _⟩ =>
    show win0_12.index t (0 : Fin 2) * 1 ≤ (i 0).val ∧ (i 0).val < win0_12.index t (0 : Fin 2) * 1 + 1
    rw [ha]; clear ha hb; omega
  | ⟨1, _⟩ =>
    show win0_12.index t (1 : Fin 2) * 80000 ≤ (i 1).val ∧ (i 1).val < win0_12.index t (1 : Fin 2) * 80000 + 80000
    rw [hb]; clear ha hb; omega

/-- THE ARRAY after the run: the cosine of every edge. -/
theorem final_cos (c : Dev nD) :
    (dats m 0 c).arrAt 12 cfg0.N = cosArr (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32) :=
  (dats m 0 c).arrAt_eq_of_cover 12
    (cosArr (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32))
    (fun t _ => flushed_cos m c t) cover_cos

end Cert.KernelIdeal.Val

end
-- ==== Proof.BodySum.lean ====
/-
  The second number the body stores for a block of 80000 edges: the sum over the block's lanes of
  `(cos + 1)²`, formed by one reduction of the whole block and laid out as a `[1, 1, 1]` array.
-/
import proofs.«136911_j62929860821311_2_alg».proof.Proof.Gen.KernelIdeal.Skeleton
import proofs.«136911_j62929860821311_2_alg».proof.Proof.Spec
import proofs.«136911_j62929860821311_2_alg».proof.Proof.BodyCos
import proofs.«136911_j62929860821311_2_alg».proof.Proof.LibUnitSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.ValueIdx Cert.Dihedral

section Defs
variable {F : FTy → Type} [FloatOps F]

/-- The block's partial loss the body stores, as a function of the twelve coordinate blocks. -/
def sumBlk (x0 : Vec F S1x80000 .f32) (x1 : Vec F S1x80000 .f32) (x2 : Vec F S1x80000 .f32) (x3 : Vec F S1x80000 .f32) (x4 : Vec F S1x80000 .f32) (x5 : Vec F S1x80000 .f32) (x6 : Vec F S1x80000 .f32) (x7 : Vec F S1x80000 .f32) (x8 : Vec F S1x80000 .f32) (x9 : Vec F S1x80000 .f32) (x10 : Vec F S1x80000 .f32) (x11 : Vec F S1x80000 .f32) : FVec F S1x1x1 .f32 :=
  k0_pay26 (k0_pay4 x0 x3) (k0_pay5 x1 x4) (k0_pay6 x2 x5) (k0_pay10 x0 x9) (k0_pay11 x1 x10) (k0_pay12 x2 x11)
    (k0_pay18 (k0_pay4 x0 x3) (k0_pay5 x1 x4) (k0_pay6 x2 x5) (k0_pay7 x0 x6) (k0_pay8 x1 x7) (k0_pay9 x2 x8) (k0_pay13 x0 x3) (k0_pay14 x1 x4))
    (k0_pay19 (k0_pay4 x0 x3) (k0_pay5 x1 x4) (k0_pay6 x2 x5) (k0_pay7 x0 x6) (k0_pay8 x1 x7) (k0_pay9 x2 x8) (k0_pay13 x0 x3) (k0_pay14 x1 x4))
    (k0_pay20 (k0_pay4 x0 x3) (k0_pay5 x1 x4) (k0_pay6 x2 x5) (k0_pay7 x0 x6) (k0_pay8 x1 x7) (k0_pay9 x2 x8) (k0_pay13 x0 x3) (k0_pay14 x1 x4))
    (k0_pay21 (k0_pay4 x0 x3) (k0_pay5 x1 x4) (k0_pay6 x2 x5) (k0_pay7 x0 x6) (k0_pay8 x1 x7) (k0_pay9 x2 x8) (k0_pay13 x0 x3) (k0_pay14 x1 x4))
    (k0_pay22 (k0_pay4 x0 x3) (k0_pay5 x1 x4) (k0_pay6 x2 x5))
    (k0_pay23 (k0_pay10 x0 x9) (k0_pay11 x1 x10) (k0_pay12 x2 x11))
    (k0_pay24 (k0_pay4 x0 x3) (k0_pay5 x1 x4) (k0_pay6 x2 x5))
    (Scalar.ofBits .f32 0x358637BD#32)

end Defs

/-- A `[1, 1, 1]` array filled with the entry `(0, 0, 0)` of another reads that entry everywhere. -/
theorem splat_read (v : FVec Ideal S1x1x1 .f32) (h : ∀ a, (![0, 0, 0] : Fin 3 → Nat) a < S1x1x1.size a) (y : S1x1x1.Idx) :
    broadcast S1x1x1 (extractAt ![0, 0, 0] v h) y = v (ix3 (0 : Fin 1) (0 : Fin 1) (0 : Fin 1)) := by
  show v (fun a => ⟨(![0, 0, 0] : Fin 3 → Nat) a, h a⟩) = _
  refine congrArg v (funext fun a => ?_)
  match a with
  | ⟨0, _⟩ => rfl
  | ⟨1, _⟩ => rfl
  | ⟨2, _⟩ => rfl

/-- A one-entry vector laid out as `[1, 1, 1]` reads its entry. -/
theorem unit_cast_read (v : FVec Ideal S1 .f32) (h : S1.ShapeCasts S1x1x1) :
    shapeCast S1x1x1 v h (ix3 (0 : Fin 1) (0 : Fin 1) (0 : Fin 1)) = v (ix1 (0 : Fin 1)) :=
  shapeCast_apply v h _ _ (by
    rw [Shape.rowMajor_val_three, Shape.rowMajor_val_one]
    rfl)

/-- The sum of a whole `[1, 80000]` block, taken through its `[1, 1, 80000]` layout, lane by lane. -/
theorem block_sum (w : FVec Ideal S1x80000 .f32) (hc : S1x80000.ShapeCasts S1x1x80000) (hr : S1x1x80000.Reduces [1, 2] S1)
    (hφ : FKind.Formats .f32) (hacc : (0x00000000#32 : BitVec 32) = FKind.add.neutral .f32 hφ) :
    multiReduction .add [1, 2] S1 (shapeCast S1x1x80000 w hc) 0x00000000#32 hr hφ hacc (ix1 (0 : Fin 1))
      = ∑ l : Fin 80000, w (ix2 (0 : Fin 1) l) := by
  rw [Ideal.multiReduction_add_total _ _ hr (fun b => match b with | ⟨0, _⟩ => rfl), Cert.Lib.sum_idx_11n]
  refine Finset.sum_congr rfl fun l _ => ?_
  exact shapeCast_ab_1ab_apply w hc (0 : Fin 1) (0 : Fin 1) l

/-- The stored number is the sum over the lanes of the stored cosine plus one, squared. -/
theorem pay26_apply (v24 : FVec Ideal S1x80000 .f32) (v25 : FVec Ideal S1x80000 .f32) (v26 : FVec Ideal S1x80000 .f32) (v30 : FVec Ideal S1x80000 .f32) (v31 : FVec Ideal S1x80000 .f32) (v32 : FVec Ideal S1x80000 .f32) (v68 : FVec Ideal S1x80000 .f32) (v70 : FVec Ideal S1x80000 .f32) (v72 : FVec Ideal S1x80000 .f32) (v73 : FVec Ideal S1x80000 .f32) (v78 : FVec Ideal S1x80000 .f32) (v83 : FVec Ideal S1x80000 .f32) (v86 : FVec Ideal S1x80000 .f32) (y : S1x1x1.Idx) :
    k0_pay26 v24 v25 v26 v30 v31 v32 v68 v70 v72 v73 v78 v83 v86 (Scalar.ofBits .f32 0x358637BD#32) y
      = ∑ l : Fin 80000, contrib (k0_pay25 v24 v25 v26 v30 v31 v32 v68 v70 v72 v73 v78 v83 v86 (Scalar.ofBits .f32 0x358637BD#32) (ix2 (0 : Fin 1) l)) := by
  unfold k0_pay26
  refine (splat_read _ _ y).trans ?_
  refine (unit_cast_read _ _).trans ?_
  refine (block_sum _ _ _ _ _).trans ?_
  rfl

/-- The stored partial loss is the sum over the block's lanes of `(cos + 1)²`. -/
theorem sumBlk_apply (x0 : Vec Ideal S1x80000 .f32) (x1 : Vec Ideal S1x80000 .f32) (x2 : Vec Ideal S1x80000 .f32) (x3 : Vec Ideal S1x80000 .f32) (x4 : Vec Ideal S1x80000 .f32) (x5 : Vec Ideal S1x80000 .f32) (x6 : Vec Ideal S1x80000 .f32) (x7 : Vec Ideal S1x80000 .f32) (x8 : Vec Ideal S1x80000 .f32) (x9 : Vec Ideal S1x80000 .f32) (x10 : Vec Ideal S1x80000 .f32) (x11 : Vec Ideal S1x80000 .f32) (y : S1x1x1.Idx) :
    sumBlk x0 x1 x2 x3 x4 x5 x6 x7 x8 x9 x10 x11 y
      = ∑ l : Fin 80000, contrib (cosPts (x0 (ix2 (0 : Fin 1) l)) (x1 (ix2 (0 : Fin 1) l)) (x2 (ix2 (0 : Fin 1) l)) (x3 (ix2 (0 : Fin 1) l)) (x4 (ix2 (0 : Fin 1) l)) (x5 (ix2 (0 : Fin 1) l)) (x6 (ix2 (0 : Fin 1) l)) (x7 (ix2 (0 : Fin 1) l)) (x8 (ix2 (0 : Fin 1) l)) (x9 (ix2 (0 : Fin 1) l)) (x10 (ix2 (0 : Fin 1) l)) (x11 (ix2 (0 : Fin 1) l))) := by
  unfold sumBlk
  rw [pay26_apply]
  refine Finset.sum_congr rfl fun l _ => ?_
  exact congrArg contrib (cosBlk_apply x0 x1 x2 x3 x4 x5 x6 x7 x8 x9 x10 x11 (ix2 (0 : Fin 1) l))

end Cert.KernelIdeal.Body

end
-- ==== Proof.BlockSum.lean ====
/-
  The array of partial losses the kernel leaves.

  At grid point `t` the body stores one number: the sum over the 80000 lanes of its block of `(cos + 1)²`, the
  cosine at lane `l` being that of the edge `t·80000 + l`.  The point writes it back as block `(t, 0, 0)` of the
  `[75, 1, 1]` output, a block of one element, so it is entry `t` of the array of the 75 block contributions.
  Entry `s` lies in the block of point `s`, so the blocks cover the array and it ends holding every contribution.
-/
import proofs.«136911_j62929860821311_2_alg».proof.Proof.Gen.KernelIdeal.Frame
import proofs.«136911_j62929860821311_2_alg».proof.Proof.Spec
import proofs.«136911_j62929860821311_2_alg».proof.Proof.LossRegroup
import proofs.«136911_j62929860821311_2_alg».proof.Proof.BodySum
import proofs.«136911_j62929860821311_2_alg».proof.Proof.Windows
import proofs.«136911_j62929860821311_2_alg».proof.Proof.BlockReads
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.ShloMosaic.TcCoe
  Idealize.SL.Sem Cert.Dihedral
open Idealize.ShloMosaic.Pipeline (Dat)

variable (m : (ℓ : Loc nD τ sig) → Buf (Elt Ideal) ℓ)

/-- The zero offsets of a rank-3 block, however they are spelt. -/
theorem zeros3 : (![0, 0, 0] : Fin 3 → Nat) = fun _ => 0 := funext fun a => by fin_cases a <;> rfl

/-- An array of block contributions read through point `t`'s block is the array read where the block sits. -/
theorem read_blk_sum (G : S75x1x1.Idx → EReal) (t : Fin cfg0.N) (y : ((cfg0.win 13).xblock (grid0.coords t)).Idx) :
    ((cfg0.win 13).blk t).view.read (Elt Ideal) G y = G (((cfg0.win 13).blk t).view.emb y) := rfl

set_option maxRecDepth 16384 in
/-- What the body leaves in the one-element output block is the partial sum of its twelve coordinate blocks: the
    one store covers the block, and every load reads a whole input block. -/
theorem out_sum_eq (x0 x1 x2 x3 x4 x5 x6 x7 x8 x9 x10 x11 : Vec Ideal S1x80000 .f32) :
    out0_13 x0 x1 x2 x3 x4 x5 x6 x7 x8 x9 x10 x11 = Body.sumBlk x0 x1 x2 x3 x4 x5 x6 x7 x8 x9 x10 x11 := by
  unfold out0_13
  rw [View.canon_unit_zero zeros3]
  simp only [View.ld_unit_zero (S := S1x80000) zeros2]
  rfl

set_option maxRecDepth 16384 in
/-- WHAT POINT `t` WRITES BACK to the partial-sum output is block `t` of the array of block contributions. -/
theorem flushed_sum (c : Dev nD) (t : Fin cfg0.N) :
    (dats m 0 c).flushed 13 t = ((cfg0.win 13).blk t).view.read (Elt Ideal)
      (partials (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32)) := by
  show (cfg0.win 13).cut (grid0.coords t) ((dats m 0 c).after 13 t) = _
  rw [after0_13, out_sum_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
  funext y
  refine ((Body.sumBlk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).trans ?_).trans
    (read_blk_sum (partials (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32)) t y).symm
  obtain ⟨ha, hb, hc⟩ := index_sum t
  have hy : (y 0).val < 1 := (y 0).isLt
  have hs : ((((cfg0.win 13).blk t).view.emb y : S75x1x1.Idx) (0 : Fin 3)).val = t.val := by
    show win0_13.index t (0 : Fin 3) * 1 + 1 * (y 0).val = t.val
    omega
  unfold partials
  refine Finset.sum_congr rfl fun l _ => ?_
  rw [iblk0_read m c t (0 : Fin 1) l, iblk1_read m c t (0 : Fin 1) l, iblk2_read m c t (0 : Fin 1) l, iblk3_read m c t (0 : Fin 1) l, iblk4_read m c t (0 : Fin 1) l, iblk5_read m c t (0 : Fin 1) l, iblk6_read m c t (0 : Fin 1) l, iblk7_read m c t (0 : Fin 1) l, iblk8_read m c t (0 : Fin 1) l, iblk9_read m c t (0 : Fin 1) l, iblk10_read m c t (0 : Fin 1) l, iblk11_read m c t (0 : Fin 1) l]
  exact (congrArg (fun e => contrib (cosAt (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32) e))
    (edgeOf_eq_edge _ t hs l)).symm

/-- An index of the output is in point `t`'s block iff each coordinate is in the block's range on its axis. -/
theorem mem_blk_sum (t : Fin cfg0.N) (i : S75x1x1.Idx) :
    i ∈ ((cfg0.win 13).blk t).view.set ↔ ∀ a : Fin 3, win0_13.index t a * S1x1x1.size a ≤ (i a).val
      ∧ (i a).val < win0_13.index t a * S1x1x1.size a + S1x1x1.size a := by
  show i ∈ ((View.whole main_v102_1).slice (win0_13.rect t)).set ↔ _
  rw [View.set_slice_whole, Rect.mem_set_unit]
  exact Iff.rfl

/-- THE COVER: entry `(s, 0, 0)` of the output lies in the block of the point `s`. -/
theorem cover_sum (i : S75x1x1.Idx) :
    ∃ t : Fin cfg0.N, (cfg0.win 13).flush t = true ∧ i ∈ ((cfg0.win 13).blk t).view.set := by
  have hN : cfg0.N = 75 := N_0
  have hi0 : (i 0).val < 75 := (i 0).isLt
  have hi1 : (i 1).val < 1 := (i 1).isLt
  have hi2 : (i 2).val < 1 := (i 2).isLt
  obtain ⟨t, ht⟩ : ∃ t : Fin cfg0.N, t.val = (i 0).val := ⟨⟨(i 0).val, by omega⟩, rfl⟩
  refine ⟨t, flush0_13 t, ?_⟩
  rw [mem_blk_sum]
  obtain ⟨ha, hb, hc⟩ := index_sum t
  intro a
  match a with
  | ⟨0, _⟩ =>
    show win0_13.index t (0 : Fin 3) * 1 ≤ (i 0).val ∧ (i 0).val < win0_13.index t (0 : Fin 3) * 1 + 1
    rw [ha]; clear ha hb hc; omega
  | ⟨1, _⟩ =>
    show win0_13.index t (1 : Fin 3) * 1 ≤ (i 1).val ∧ (i 1).val < win0_13.index t (1 : Fin 3) * 1 + 1
    rw [hb]; clear ha hb hc; omega
  | ⟨2, _⟩ =>
    show win0_13.index t (2 : Fin 3) * 1 ≤ (i 2).val ∧ (i 2).val < win0_13.index t (2 : Fin 3) * 1 + 1
    rw [hc]; clear ha hb hc; omega

/-- THE ARRAY after the run: the 75 block contributions to the loss. -/
theorem final_sum (c : Dev nD) :
    (dats m 0 c).arrAt 13 cfg0.N = partials (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32) :=
  (dats m 0 c).arrAt_eq_of_cover 13
    (partials (m ((c : Thread nD τ).loc main_arg0) : S2000000x3.Idx → EReal)
      (m ((c : Thread nD τ).loc main_arg1) : S6000000.Idx → BitVec 32)
      (m ((c : Thread nD τ).loc main_arg2) : S6000000.Idx → BitVec 32)
      (m ((c : Thread nD τ).loc main_arg3) : S6000000.Idx → BitVec 32)
      (m ((c : Thread nD τ).loc main_arg4) : S6000000.Idx → BitVec 32))
    (fun t _ => flushed_sum m c t) cover_sum

end Cert.KernelIdeal.Val

end
-- ==== Proof.Tail.lean ====
/-
  The idealized kernel's loss.  The 75 block contributions are added up by the last lines of the program:
  zero plus their sum, laid out as a one-entry vector; that is the loss over all edges.
-/
import proofs.«136911_j62929860821311_2_alg».proof.Proof.Gen.KernelIdeal.Frame
import proofs.«136911_j62929860821311_2_alg».proof.Proof.Spec
import proofs.«136911_j62929860821311_2_alg».proof.Proof.LossRegroup
import Idealize.ShloMosaic.Lib.StableHlo.Run
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx Idealize.ShloMosaic.TcCoe
open Idealize.SL.Sem Idealize.ShloMosaic.StableHlo Cert.Dihedral
open Idealize.ShloMosaic.Pipeline (Dat)

variable (m : (ℓ : Loc nD τ sig) → Buf (Elt Ideal) ℓ)

/-- The program's last lines add the 75 block contributions to zero and lay the number out as a one-entry
    vector: the loss over all edges. -/
theorem loss_tail (c : Dev nD)
    (hsum : (dats m 0 c).arrAt 13 cfg0.N = partials (m ((c : Thread nD τ).loc main_arg0) : S2000000x3.Idx → EReal)
          (m ((c : Thread nD τ).loc main_arg1) : S6000000.Idx → BitVec 32)
          (m ((c : Thread nD τ).loc main_arg2) : S6000000.Idx → BitVec 32)
          (m ((c : Thread nD τ).loc main_arg3) : S6000000.Idx → BitVec 32)
          (m ((c : Thread nD τ).loc main_arg4) : S6000000.Idx → BitVec 32)) :
    Pipeline.afterTail₀ cfgs (dats m) 0 (V0 m) [hostOps1] c main_v104
      = lossArr (m ((c : Thread nD τ).loc main_arg0) : S2000000x3.Idx → EReal)
          (m ((c : Thread nD τ).loc main_arg1) : S6000000.Idx → BitVec 32)
          (m ((c : Thread nD τ).loc main_arg2) : S6000000.Idx → BitVec 32)
          (m ((c : Thread nD τ).loc main_arg3) : S6000000.Idx → BitVec 32)
          (m ((c : Thread nD τ).loc main_arg4) : S6000000.Idx → BitVec 32) := by
  unfold Pipeline.afterTail₀
  show StableHlo.after hostOps1 _ (Proc.devRef .tc main_v104) = _
  after_results
  have hA : Pipeline.withArrays (cfgs 0).spec c (V0 m c) (fun w => (dats m 0 c).arrAt w (cfgs 0).N) (Proc.devRef .tc main_v102_1)
      = partials (m ((c : Thread nD τ).loc main_arg0) : S2000000x3.Idx → EReal)
          (m ((c : Thread nD τ).loc main_arg1) : S6000000.Idx → BitVec 32)
          (m ((c : Thread nD τ).loc main_arg2) : S6000000.Idx → BitVec 32)
          (m ((c : Thread nD τ).loc main_arg3) : S6000000.Idx → BitVec 32)
          (m ((c : Thread nD τ).loc main_arg4) : S6000000.Idx → BitVec 32) :=
    (Pipeline.withArrays_arr spec0 launch0.win.arr_inj c _ _ 13).trans hsum
  funext y
  refine (shapeCast_apply _ shapeCasts_S_S1 y ix0 (by
    have h1 : (S_.rowMajor ix0).val < 1 := (S_.rowMajor ix0).isLt
    have h2 : (S1.rowMajor y).val < 1 := (S1.rowMajor y).isLt
    omega)).trans ?_
  rw [hA]
  simp only [Host.reduceAdd, Ideal.hostReduceAdd_def]
  rw [Ideal.hostReduceAdd_total reducesTo_S75x1x1_S_d0_1_2 (fun b => b.elim0)]
  rw [constant_apply, Ideal.ofBits_zero_f32, zero_add]
  exact sum_partials _ _ _ _ _ y

end Cert.KernelIdeal.Val

end
-- ==== Proof.KernelRun.lean ====
/-
  The idealized kernel's run, read: after it the loss result holds the sum over all edges of `(cos + 1)²`, the
  cosine result holds the dihedral cosine of every edge, and the five arguments are as launched.
-/
import proofs.«136911_j62929860821311_2_alg».proof.Proof.Gen.KernelIdeal.Frame
import proofs.«136911_j62929860821311_2_alg».proof.Proof.Spec
import proofs.«136911_j62929860821311_2_alg».proof.Proof.LossRegroup
import proofs.«136911_j62929860821311_2_alg».proof.Proof.BlockCos
import proofs.«136911_j62929860821311_2_alg».proof.Proof.BlockSum
import proofs.«136911_j62929860821311_2_alg».proof.Proof.Tail

set_option maxRecDepth 16384

noncomputable section

namespace Cert.KernelIdeal.Val

open Cert.KernelIdeal Cert.KernelIdeal.Gen Idealize.ShloMosaic Idealize.ShloMosaic.ValueIdx Idealize.ShloMosaic.TcCoe
open Idealize.SL.Sem Cert.Dihedral

variable (m : (ℓ : Loc nD τ sig) → Buf (Elt Ideal) ℓ) (ρ : Dev nD → PrngReg)

/-- Every weakly fair execution of the idealized kernel terminates with the loss and the cosines at the common
    function of the argument arrays, and the arguments unchanged. -/
theorem run : θ_run defs (onTc (τ := τ) (main (F := Ideal))) ⟨m, fun _ => 0, ρ⟩ fun r => ∀ c : Dev nD,
      r.2.mem ((c.tc : Thread nD τ).loc main_v104)
        = lossArr (m ((c.tc : Thread nD τ).loc main_arg0) : S2000000x3.Idx → EReal)
            (m ((c.tc : Thread nD τ).loc main_arg1) : S6000000.Idx → BitVec 32)
            (m ((c.tc : Thread nD τ).loc main_arg2) : S6000000.Idx → BitVec 32)
            (m ((c.tc : Thread nD τ).loc main_arg3) : S6000000.Idx → BitVec 32)
            (m ((c.tc : Thread nD τ).loc main_arg4) : S6000000.Idx → BitVec 32)
      ∧ r.2.mem ((c.tc : Thread nD τ).loc main_v102_0)
        = cosArr (m ((c.tc : Thread nD τ).loc main_arg0) : S2000000x3.Idx → EReal)
            (m ((c.tc : Thread nD τ).loc main_arg1) : S6000000.Idx → BitVec 32)
            (m ((c.tc : Thread nD τ).loc main_arg2) : S6000000.Idx → BitVec 32)
            (m ((c.tc : Thread nD τ).loc main_arg3) : S6000000.Idx → BitVec 32)
            (m ((c.tc : Thread nD τ).loc main_arg4) : S6000000.Idx → BitVec 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v104 (Pipeline.mem_restRefs_of main_v104 (by decide) (by decide))).trans (loss_tail m c (final_sum m c)),
      ((h c).1 12).trans (final_cos m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.lean ====
/-
  The claim: the kernel runs and leaves its arguments alone, at the word level and read over the extended reals; the
  reference does too; and over the extended reals the two compute the same pair of results from arguments that
  agree.  Both sides are shown to end at one function of the five argument arrays: for every edge the dihedral
  cosine of the four vertices its index words select (a negative index wrapped, the wrapped index clamped into the
  table), and the sum over all edges of `(cos + 1)²`.  The kernel forms that sum block by block (75 blocks of 80000
  edges) and adds the block sums afterwards; the reference forms it in one reduction; the two agree because addition
  of extended reals is commutative and associative, which is all the regrouping needs.
-/
import proofs.«136911_j62929860821311_2_alg».proof.Defs
import proofs.«136911_j62929860821311_2_alg».proof.Proof.Gen.Kernel
import proofs.«136911_j62929860821311_2_alg».proof.Proof.Gen.Kernel.Skeleton
import proofs.«136911_j62929860821311_2_alg».proof.Proof.Gen.Kernel.Launch
import proofs.«136911_j62929860821311_2_alg».proof.Proof.Gen.Kernel.Points
import proofs.«136911_j62929860821311_2_alg».proof.Proof.Gen.Kernel.Frame
import proofs.«136911_j62929860821311_2_alg».proof.Proof.Gen.KernelIdeal
import proofs.«136911_j62929860821311_2_alg».proof.Proof.Gen.KernelIdeal.Skeleton
import proofs.«136911_j62929860821311_2_alg».proof.Proof.Gen.KernelIdeal.Launch
import proofs.«136911_j62929860821311_2_alg».proof.Proof.Gen.KernelIdeal.Points
import proofs.«136911_j62929860821311_2_alg».proof.Proof.Gen.KernelIdeal.Frame
import proofs.«136911_j62929860821311_2_alg».proof.Proof.Gen.ReferenceIdeal
import proofs.«136911_j62929860821311_2_alg».proof.Proof.Gen.Pre_finite_inputs
import proofs.«136911_j62929860821311_2_alg».proof.Proof.Gen.ReferenceIdeal.Run
import proofs.«136911_j62929860821311_2_alg».proof.Proof.Gen.ReferenceIdeal.Read
import proofs.«136911_j62929860821311_2_alg».proof.Proof.Spec
import proofs.«136911_j62929860821311_2_alg».proof.Proof.RefValue
import proofs.«136911_j62929860821311_2_alg».proof.Proof.KernelRun
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Over the extended reals the kernel and the reference, run from arguments that agree, end with the same loss and
    the same cosines: both are the common function of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Val.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v101_eq, Cert.ReferenceIdeal.RefValue.loss_eq,
      (hagree c).1, (hagree c).2.1, (hagree c).2.2.1, (hagree c).2.2.2.1, (hagree c).2.2.2.2]
  · rw [(h c).2.1, Cert.ReferenceIdeal.Read.val_main_v97_eq, Cert.ReferenceIdeal.RefValue.cos_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
